-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S200x128 : Shape := ⟨2, ![200, 128]⟩
abbrev S4000x128 : Shape := ⟨2, ![4000, 128]⟩
abbrev S4000x1 : Shape := ⟨2, ![4000, 1]⟩
abbrev S8x128 : Shape := ⟨2, ![8, 128]⟩
abbrev S1x128 : Shape := ⟨2, ![1, 128]⟩
abbrev S4000 : Shape := ⟨1, ![4000]⟩
abbrev S5000x128 : Shape := ⟨2, ![5000, 128]⟩

abbrev nBuf : Space → Nat
  | .hbm => 54
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S200x128, .f32⟩
  | .hbm, ⟨33, _⟩ => ⟨S200x128, .f32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  reduces_S4000x128_S128 : S4000x128.Reduces [0] S128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S200x128_S128_d0 : S200x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S200x128.size a
  hwx0_7 : ∀ i : grid0.Coords, EltTy.bits .f32 = 32 ∨ (Rect.block (s := S200x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S200x128.size a
  hwx0_8 : ∀ i : grid0.Coords, EltTy.bits .f32 = 32 ∨ (Rect.block (s := S200x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRun.lean ====
/-
  The idealized kernel program's run with its result named. The program is two pipelined regions among two stretches of
  host operations; every weakly fair execution from a memory with zero counters terminates without a fault, and in the
  final state the result array holds what the second region's write-backs leave (the contents of the last segment
  boundary read at the result's buffer), while the seven argument arrays are as launched. The argument is the one that
  shows the arguments unchanged: the launch over the four segments, the last thread state read against the final state
  at every unscoped buffer — here read at the result's buffer as well.
-/
import proofs.«165918_j24438363914372_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and the argument arrays end as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The last boundary's contents at the result's buffer are what the second region's pipeline leaves in its output
    window's array. -/
theorem W4_result (c : Dev nD) :
    W4 m ρ c (Proc.devRef .tc main_v34) = (dat1 (V3 m ρ) c).arrAt 5 cfg1.N :=
  W4_arr m ρ c 5

end Cert.KernelIdeal.Named

end
-- ==== Proof.SageSpec.lean ====
/-
  The mathematics of a GraphSAGE layer followed by a batch normalisation, over the extended reals, as functions of
  coordinates. A node i has aggregated neighbour features agg i, an in-degree deg i and own features x i. The layer is
    lin i j = (sum_k (agg i k / max (deg i) 1) * Wl k j) + bl j + sum_k x i k * Wr k j,
  each row is divided by max (its Euclidean norm) tiny and rectified (rel), and every column j of the 100000 x 128
  result r is normalised by its mean and variance over the 100000 rows.

  The column statistics are written in two ways. The one-pass form (kerOut) sums r and r * r over 25 tiles of 4000
  rows, each tile's sum kept in row 8 t of a 200-row array whose other rows are zero (part), takes
  var = max (E[r^2] - mean^2) 0 and multiplies by 1 / sqrt (var + eps). The two-pass form (refOut) takes
  var = E[(r - mean)^2] and divides by sqrt (var + eps). Over real entries the two agree: Algebra.lean.
-/
import Idealize.ShloMosaic.PureOps.Ideal
import Idealize.ShloMosaic.Lib.ValueIdx

noncomputable section

open scoped BigOperators

namespace Cert.Sage

open Idealize.ShloMosaic Idealize.ShloMosaic.ValueIdx

/-- The four float constants of the layer, as the extended reals their binary words denote. -/
def one : EReal := Ideal.ofBits .f32 0x3F800000#32
def tiny : EReal := Ideal.ofBits .f32 0x2B8CBCCC#32
def eps : EReal := Ideal.ofBits .f32 0x3727C5AC#32
def cnt : EReal := Ideal.ofBits .f32 0x47C35000#32

section Layer
variable (agg : Fin 100000 → Fin 128 → EReal) (deg : Fin 100000 → EReal) (x : Fin 100000 → Fin 128 → EReal)
  (Wl : Fin 128 → Fin 128 → EReal) (bl : Fin 128 → EReal) (Wr : Fin 128 → Fin 128 → EReal)

/-- The linear layer on the degree-averaged neighbour features and the node's own features. -/
def lin (i : Fin 100000) (j : Fin 128) : EReal :=
  (∑ k : Fin 128, Ideal.div (agg i k) (max (deg i) one) * Wl k j) + bl j + ∑ k : Fin 128, x i k * Wr k j

/-- A row's Euclidean norm, kept away from zero. -/
def nrm (i : Fin 100000) : EReal :=
  max (Ideal.sqrt (∑ k : Fin 128, lin agg deg x Wl bl Wr i k * lin agg deg x Wl bl Wr i k)) tiny

/-- The row-normalised, rectified layer. -/
def rel (i : Fin 100000) (j : Fin 128) : EReal :=
  max (Ideal.div (lin agg deg x Wl bl Wr i j) (nrm agg deg x Wl bl Wr i)) 0
end Layer

section Norm
variable (r : Fin 100000 → Fin 128 → EReal) (γ β : Fin 128 → EReal)

/-- Row s of tile t, among 25 tiles of 4000 rows, is a row of the array. -/
theorem tile_row_lt {q s : ℕ} (hq : q < 200) (hs : s < 4000) : 4000 * (q / 8) + s < 100000 := by omega

/-- Row q of the 200-row array of per-tile column sums of f: tile q / 8's sum when q is a multiple of 8, else zero. -/
def part (f : Fin 100000 → Fin 128 → EReal) (q : Fin 200) (j : Fin 128) : EReal :=
  if q.val % 8 = 0 then ∑ s : Fin 4000, f ⟨4000 * (q.val / 8) + s.val, tile_row_lt q.isLt s.isLt⟩ j else 0

/-- One-pass column mean and variance, from the per-tile sums. -/
def meanK (j : Fin 128) : EReal := Ideal.div (∑ q : Fin 200, part r q j) cnt
def varK (j : Fin 128) : EReal :=
  max (Ideal.div (∑ q : Fin 200, part (fun i j => r i j * r i j) q j) cnt - meanK r j * meanK r j) 0
/-- The normalisation with the one-pass statistics and a multiplication by the reciprocal deviation. -/
def kerOut (i : Fin 100000) (j : Fin 128) : EReal :=
  (r i j - meanK r j) * Ideal.div one (Ideal.sqrt (varK r j + eps)) * γ j + β j

/-- Two-pass column mean and variance. -/
def meanR (j : Fin 128) : EReal := Ideal.div (∑ i : Fin 100000, r i j) cnt
def varR (j : Fin 128) : EReal :=
  Ideal.div (∑ i : Fin 100000, (r i j - meanR r j) * (r i j - meanR r j)) cnt
/-- The normalisation with the two-pass statistics and a division by the deviation. -/
def refOut (i : Fin 100000) (j : Fin 128) : EReal :=
  Ideal.div (r i j - meanR r j) (Ideal.sqrt (varR r j + eps)) * γ j + β j
end Norm

/-! ## The same functions over arrays indexed by shapes -/

abbrev SN : Shape := ⟨2, ![100000, 128]⟩
abbrev SV : Shape := ⟨1, ![100000]⟩
abbrev SW : Shape := ⟨2, ![128, 128]⟩
abbrev SC : Shape := ⟨1, ![128]⟩

/-- The rectified layer as a 100000 x 128 array, from the arrays of its operands. -/
def relArr (A : SN.Idx → EReal) (D : SV.Idx → EReal) (X : SN.Idx → EReal) (WL : SW.Idx → EReal) (BL : SC.Idx → EReal)
    (WR : SW.Idx → EReal) : Fin 100000 → Fin 128 → EReal :=
  rel (fun i k => A (ix2 i k)) (fun i => D (ix1 i)) (fun i k => X (ix2 i k)) (fun k j => WL (ix2 k j))
    (fun j => BL (ix1 j)) (fun k j => WR (ix2 k j))

/-- The whole network's result array, in the two-pass form. -/
def G (A : SN.Idx → EReal) (D : SV.Idx → EReal) (X : SN.Idx → EReal) (WL : SW.Idx → EReal) (BL : SC.Idx → EReal)
    (WR : SW.Idx → EReal) (Γ B : SC.Idx → EReal) : SN.Idx → EReal :=
  fun y => refOut (relArr A D X WL BL WR) (fun j => Γ (ix1 j)) (fun j => B (ix1 j)) (y 0) (y 1)

/-- The whole network's result array, in the one-pass form. -/
def GK (A : SN.Idx → EReal) (D : SV.Idx → EReal) (X : SN.Idx → EReal) (WL : SW.Idx → EReal) (BL : SC.Idx → EReal)
    (WR : SW.Idx → EReal) (Γ B : SC.Idx → EReal) : SN.Idx → EReal :=
  fun y => kerOut (relArr A D X WL BL WR) (fun j => Γ (ix1 j)) (fun j => B (ix1 j)) (y 0) (y 1)

end Cert.Sage

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SageBody.lean ====
/-
  The first kernel's body, at an index. One grid point holds 4000 rows of the aggregated features, the in-degrees and
  the node features, and the whole weights. Row p of what the body stores is the row-level layer of row p alone: the
  degree-averaged row times Wl, plus the bias, plus the node's row times Wr; divided by the larger of the row's
  Euclidean norm and a tiny constant; rectified. Changes of float format are the identity over the extended reals and a
  matrix-unit product into zeros is the plain sum of products.
-/
import proofs.«165918_j24438363914372_2_alg».proof.Proof.Gen.KernelIdeal.Skeleton
import proofs.«165918_j24438363914372_2_alg».proof.Proof.SageSpec
import proofs.«165918_j24438363914372_2_alg».proof.Proof.LibDotIx2
import proofs.«165918_j24438363914372_2_alg».proof.Proof.LibRowReduce
import proofs.«165918_j24438363914372_2_alg».proof.Proof.LibKeepdims
import Idealize.ShloMosaic.Lib.ValueLayout
import Idealize.ShloMosaic.Lib.Pipeline.Value

noncomputable section

open scoped BigOperators

namespace Cert.Sage.Body

open Cert.KernelIdeal Cert.KernelIdeal.Gen Idealize.ShloMosaic Idealize.ShloMosaic.ValueIdx Cert.Sage

/-- The linear layer of ONE row: a the aggregated row, d its in-degree, xr the node's own row. -/
def linRow (a : Fin 128 → EReal) (d : EReal) (xr : Fin 128 → EReal) (Wl : Fin 128 → Fin 128 → EReal) (bl : Fin 128 → EReal)
    (Wr : Fin 128 → Fin 128 → EReal) (j : Fin 128) : EReal :=
  (∑ k : Fin 128, Ideal.div (a k) (max d one) * Wl k j) + bl j + ∑ k : Fin 128, xr k * Wr k j

/-- The row-normalised, rectified layer of one row. -/
def relRow (a : Fin 128 → EReal) (d : EReal) (xr : Fin 128 → EReal) (Wl : Fin 128 → Fin 128 → EReal) (bl : Fin 128 → EReal)
    (Wr : Fin 128 → Fin 128 → EReal) (j : Fin 128) : EReal :=
  max (Ideal.div (linRow a d xr Wl bl Wr j) (max (Ideal.sqrt (∑ k : Fin 128, linRow a d xr Wl bl Wr k * linRow a d xr Wl bl Wr k)) tiny)) 0

/-- The layer at (i, j) depends on row i of its operands only. -/
theorem rel_eq_relRow (agg : Fin 100000 → Fin 128 → EReal) (deg : Fin 100000 → EReal) (x : Fin 100000 → Fin 128 → EReal)
    (Wl : Fin 128 → Fin 128 → EReal) (bl : Fin 128 → EReal) (Wr : Fin 128 → Fin 128 → EReal) (i : Fin 100000) (j : Fin 128) :
    rel agg deg x Wl bl Wr i j = relRow (agg i) (deg i) (x i) Wl bl Wr j := rfl

/-- The body's two products contract the left operand's second axis with the right operand's first. -/
theorem plainDot : PlainDot dot_S4000x128_S128x128_S4000x128_1_0_0_1_n_n where
  rank := rfl
  size := rfl
  l0 := fun i q => by
    unfold DotDims.lhsIdx
    rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
    rfl
  l1 := fun i q => dot_S4000x128_S128x128_S4000x128_1_0_0_1_n_n.lhsIdx_val_of_single rfl i q
  r0 := fun i q => dot_S4000x128_S128x128_S4000x128_1_0_0_1_n_n.rhsIdx_val_of_single rfl i q
  r1 := fun i q => by
    unfold DotDims.rhsIdx
    rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
    rfl

/-- The body's row reduction over the lanes, at row p: the sum of the row's entries. -/
theorem rowsum_apply (w : FVec Ideal S4000x128 .f32) (hφ : FKind.Formats .f32) (hacc : (0x00000000#32 : BitVec 32) = 0x00000000#32)
    (p : Fin 4000) :
    multiReduction (F := Ideal) .add [1] S4000 w 0x00000000#32 reduces_S4000x128_S4000 hφ hacc (ix1 p)
      = ∑ j : Fin 128, w (ix2 p j) :=
  multiReduction_add_row w 0x00000000#32 reduces_S4000x128_S4000 hφ hacc p

/-- A square root of a vector, at an index. -/
theorem sqrt_apply' {s : Shape} (v : FVec Ideal s .f32) (i : s.Idx) : sqrt v i = Ideal.sqrt (v i) := rfl

/-- What the body stores in its first output, at row p and column c: the row-level layer of row p. -/
theorem pay4_apply (v0 : Vec Ideal S4000x128 .f32) (v2 : Vec Ideal S4000x1 .f32) (v9 : Vec Ideal S4000x128 .f32)
    (v11 : Vec Ideal S128x128 .f32) (v13 : Vec Ideal S128x128 .f32) (v16 : Vec Ideal S128 .f32) (p : Fin 4000) (c : Fin 128) :
    k0_pay4 (F := Ideal) v0 v2 v9 v11 v13 v16 (ix2 p c)
      = relRow (fun k => v0 (ix2 p k)) (v2 (ix2 p (0 : Fin 1))) (fun k => v9 (ix2 p k)) (fun k j => v11 (ix2 k j))
          (fun j => v16 (ix1 j)) (fun k j => v13 (ix2 k j)) c := by
  unfold k0_pay4
  simp only [maximumf_apply, divf_apply, addf_apply, mulf_apply, broadcast_apply, truncf_apply,
    broadcastTo_a1_ab_apply, sqrt_apply', shapeCast_a_a1_apply,
    matmul_zero_ix2_any plainDot, broadcastTo_1b_ab_apply, shapeCast_a_1a_apply, shapeCast_self]
  rw [rowsum_apply]
  simp only [maximumf_apply, divf_apply, addf_apply, mulf_apply, broadcast_apply, truncf_apply,
    broadcastTo_a1_ab_apply, sqrt_apply', shapeCast_a_a1_apply,
    matmul_zero_ix2_any plainDot, broadcastTo_1b_ab_apply, shapeCast_a_1a_apply, shapeCast_self, Ideal.ofBits_def, Ideal.ofBits_zero_f32]
  unfold relRow linRow one tiny
  rfl

end Cert.Sage.Body

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.SageTiles.lean ====
/-
  The first kernel's two small outputs, at an index. Beside the 4000 rectified rows, a grid point stores two 8 x 128
  blocks: the column sums of those rows, and of their squares, in sublane 0, zeros in the seven other sublanes (an
  iota along the sublanes compared with zero selects between the broadcast sum and zero).
-/
import proofs.«165918_j24438363914372_2_alg».proof.Proof.SageBody
import proofs.«165918_j24438363914372_2_alg».proof.Proof.LibColReduce

noncomputable section

open scoped BigOperators

namespace Cert.Sage.Body

open Cert.KernelIdeal Cert.KernelIdeal.Gen Idealize.ShloMosaic Idealize.ShloMosaic.ValueIdx Cert.Sage

/-- The body's reduction over the 4000 rows, at column c: the sum of the column's entries. -/
theorem colsum_apply (w : FVec Ideal S4000x128 .f32) (hφ : FKind.Formats .f32) (hacc : (0x00000000#32 : BitVec 32) = 0x00000000#32)
    (c : Fin 128) :
    multiReduction (F := Ideal) .add [0] S128 w 0x00000000#32 reduces_S4000x128_S128 hφ hacc (ix1 c)
      = ∑ s : Fin 4000, w (ix2 s c) :=
  multiReduction_add_col w 0x00000000#32 reduces_S4000x128_S128 hφ hacc c

/-- The sublane mask: one in sublane 0, zero elsewhere. -/
theorem mask_apply (u : Fin 8) (c : Fin 128) : k0_pay1 (ix2 u c) = if u.val = 0 then 1#1 else 0#1 := by
  unfold k0_pay1
  show IntOp.cmpi .eq (iota .tc S8x128 32 [0] iota_S8x128_d0_w32 (ix2 u c)) 0#32 = _
  rw [iota_single_apply]
  show IntOp.cmpi .eq (BitVec.ofNat 32 u.val) 0#32 = _
  revert u; decide

/-- A 1 x 128 row kept in sublane 0 of an 8 x 128 block. -/
theorem pay2_apply (w : FVec Ideal S1x128 .f32) (u : Fin 8) (c : Fin 128) :
    k0_pay2 (F := Ideal) w (ix2 u c) = if u.val = 0 then w (ix2 (0 : Fin 1) c) else 0 := by
  unfold k0_pay2
  simp only [select_apply, mask_apply, broadcast_apply, broadcastTo_1b_ab_apply, shapeCast_self]
  by_cases h : u.val = 0
  · rw [if_pos h, if_pos h, select_one]
  · rw [if_neg h, if_neg h, select_zero]; exact Ideal.ofBits_zero_f32

/-- A 128-vector kept in sublane 0 of an 8 x 128 block. -/
theorem pay3_apply (w : FVec Ideal S128 .f32) (u : Fin 8) (c : Fin 128) :
    k0_pay3 (F := Ideal) w (ix2 u c) = if u.val = 0 then w (ix1 c) else 0 := by
  unfold k0_pay3
  simp only [select_apply, mask_apply, broadcast_apply, broadcastTo_1b_ab_apply, shapeCast_self, shapeCast_a_1a_apply]
  by_cases h : u.val = 0
  · rw [if_pos h, if_pos h, select_one]
  · rw [if_neg h, if_neg h, select_zero]; exact Ideal.ofBits_zero_f32

/-- The second output's block: the column sums of the stored rows, in sublane 0. -/
theorem tilesum_apply (v0 : Vec Ideal S4000x128 .f32) (v2 : Vec Ideal S4000x1 .f32) (v9 : Vec Ideal S4000x128 .f32)
    (v11 : Vec Ideal S128x128 .f32) (v13 : Vec Ideal S128x128 .f32) (v16 : Vec Ideal S128 .f32) (u : Fin 8) (c : Fin 128) :
    k0_pay2 (F := Ideal) (k0_pay5 v0 v2 v9 v11 v13 v16) (ix2 u c)
      = if u.val = 0 then ∑ s : Fin 4000, k0_pay4 (F := Ideal) v0 v2 v9 v11 v13 v16 (ix2 s c) else 0 := by
  rw [pay2_apply]
  unfold k0_pay5
  rw [shapeCast_a_1a_apply, colsum_apply]

/-- The third output's block: the column sums of the stored rows' squares, in sublane 0. -/
theorem tilesumsq_apply (v0 : Vec Ideal S4000x128 .f32) (v2 : Vec Ideal S4000x1 .f32) (v9 : Vec Ideal S4000x128 .f32)
    (v11 : Vec Ideal S128x128 .f32) (v13 : Vec Ideal S128x128 .f32) (v16 : Vec Ideal S128 .f32) (u : Fin 8) (c : Fin 128) :
    k0_pay3 (F := Ideal) (k0_pay6 v0 v2 v9 v11 v13 v16) (ix2 u c)
      = if u.val = 0 then ∑ s : Fin 4000, k0_pay4 (F := Ideal) v0 v2 v9 v11 v13 v16 (ix2 s c) * k0_pay4 (F := Ideal) v0 v2 v9 v11 v13 v16 (ix2 s c) else 0 := by
  rw [pay3_apply]
  unfold k0_pay6
  rw [colsum_apply]
  simp only [mulf_apply]

end Cert.Sage.Body

end
-- ==== Proof.SageRegion0.lean ====
/-
  The first region's first output array after the run. The region has 25 grid points; point t stages rows
  4000 t .. 4000 t + 3999 of the aggregated features, the in-degrees and the node features, and the whole weights, and
  writes back 4000 rows of the rectified layer. Every row of the 100000 x 128 array lies in exactly the block of point
  (row / 4000), so the array ends holding the rectified layer of the arrays the region was entered with. Stated for any
  entry contents V; the block coordinates are the printed index maps, decided once over the 25 points.
-/
import proofs.«165918_j24438363914372_2_alg».proof.Proof.Gen.KernelIdeal.Frame
import proofs.«165918_j24438363914372_2_alg».proof.Proof.SageTiles
import Idealize.ShloMosaic.Lib.Pipeline.Value

set_option maxRecDepth 16384

noncomputable section

open scoped BigOperators

namespace Cert.Sage.Region0

open Cert.KernelIdeal Cert.KernelIdeal.Gen Idealize.ShloMosaic Idealize.ShloMosaic.TcCoe Idealize.ShloMosaic.ValueIdx Idealize.SL.Sem Cert.Sage Cert.Sage.Body
open Idealize.ShloMosaic.Pipeline (Dat Cfg Window)

variable (V : (c : Dev nD) → (b : Ref sig .tc) → Buf (Elt Ideal) ((c : Thread nD τ).loc b))

/-- The zero offsets of a whole-buffer access. -/
theorem hz2 : (![0, 0] : Fin 2 → Nat) = fun _ => 0 := funext fun a => by fin_cases a <;> rfl
theorem hz1 : (![0] : Fin 1 → Nat) = fun _ => 0 := funext fun a => by fin_cases a; rfl

/-- The first output's staging buffer after the body, at row p and column q: the row-level layer of the staged rows. -/
theorem out6_apply (x0 : Vec Ideal S4000x128 .f32) (x1 : Vec Ideal S4000x1 .f32) (x2 : Vec Ideal S4000x128 .f32)
    (x3 : Vec Ideal S128x128 .f32) (x4 : Vec Ideal S128 .f32) (x5 : Vec Ideal S128x128 .f32) (p : Fin 4000) (q : Fin 128) :
    out0_6 (F := Ideal) x0 x1 x2 x3 x4 x5 (ix2 p q)
      = relRow (fun k => x0 (ix2 p k)) (x1 (ix2 p (0 : Fin 1))) (fun k => x2 (ix2 p k)) (fun k j => x3 (ix2 k j))
          (fun j => x4 (ix1 j)) (fun k j => x5 (ix2 k j)) q := by
  unfold out0_6
  rw [View.canon_unit_zero hz2]
  simp only [View.ld_unit_zero (S := S4000x128) hz2, View.ld_unit_zero (S := S4000x1) hz2, View.ld_unit_zero (S := S128x128) hz2,
    View.ld_unit_zero (S := S128) hz1]
  exact pay4_apply x0 x1 x2 x3 x5 x4 p q

/-- The printed index maps over the 25 grid points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- A grid point is below 25. -/
theorem t_lt (t : Fin cfg0.N) : t.val < 25 := by
  have := t.isLt; have hN : cfg0.N = 25 := N_0; omega

/-- Row p of tile t. -/
def row (t : Fin cfg0.N) (p : Fin 4000) : Fin 100000 := ⟨4000 * t.val + p.val, by have := t_lt t; have := p.isLt; omega⟩

/-- Each input window's block at point t, read at local coordinates, is its array at the global ones: the three
    row-tiled operands at row 4000 t + p, the weights and the bias whole. -/
theorem blk0 (c : Dev nD) (t : Fin cfg0.N) (p : Fin 4000) (k : Fin 128) :
    iblk0 V c 0 t (ix2 p k) = V c main_v13 (ix2 (row t p) k) := by
  show V c main_v13 (((cfg0.win 0).blk t).view.emb (ix2 p k)) = _
  refine congrArg _ (funext fun a => Fin.ext ?_)
  obtain ⟨e0, e1, -⟩ := idx0 t
  match a with
  | ⟨0, _⟩ => show win0_0.index t (0 : Fin 2) * 4000 + 1 * p.val = 4000 * t.val + p.val; omega
  | ⟨1, _⟩ => show win0_0.index t (1 : Fin 2) * 128 + 1 * k.val = k.val; omega

theorem blk1 (c : Dev nD) (t : Fin cfg0.N) (p : Fin 4000) (u : Fin 1) :
    iblk0 V c 1 t (ix2 p u) = V c main_v18 (ix2 (row t p) u) := by
  show V c main_v18 (((cfg0.win 1).blk t).view.emb (ix2 p u)) = _
  refine congrArg _ (funext fun a => Fin.ext ?_)
  obtain ⟨-, -, e0, e1, -⟩ := idx0 t
  match a with
  | ⟨0, _⟩ => show win0_1.index t (0 : Fin 2) * 4000 + 1 * p.val = 4000 * t.val + p.val; omega
  | ⟨1, _⟩ => show win0_1.index t (1 : Fin 2) * 1 + 1 * u.val = u.val; omega

theorem blk2 (c : Dev nD) (t : Fin cfg0.N) (p : Fin 4000) (k : Fin 128) :
    iblk0 V c 2 t (ix2 p k) = V c main_arg0 (ix2 (row t p) k) := by
  show V c main_arg0 (((cfg0.win 2).blk t).view.emb (ix2 p k)) = _
  refine congrArg _ (funext fun a => Fin.ext ?_)
  obtain ⟨-, -, -, -, e0, e1, -⟩ := idx0 t
  match a with
  | ⟨0, _⟩ => show win0_2.index t (0 : Fin 2) * 4000 + 1 * p.val = 4000 * t.val + p.val; omega
  | ⟨1, _⟩ => show win0_2.index t (1 : Fin 2) * 128 + 1 * k.val = k.val; omega

theorem blk3 (c : Dev nD) (t : Fin cfg0.N) (k : Fin 128) (j : Fin 128) :
    iblk0 V c 3 t (ix2 k j) = V c main_arg2 (ix2 k j) := by
  show V c main_arg2 (((cfg0.win 3).blk t).view.emb (ix2 k j)) = _
  refine congrArg _ (funext fun a => Fin.ext ?_)
  obtain ⟨-, -, -, -, -, -, e0, e1, -⟩ := idx0 t
  match a with
  | ⟨0, _⟩ => show win0_3.index t (0 : Fin 2) * 128 + 1 * k.val = k.val; omega
  | ⟨1, _⟩ => show win0_3.index t (1 : Fin 2) * 128 + 1 * j.val = j.val; omega

theorem blk4 (c : Dev nD) (t : Fin cfg0.N) (j : Fin 128) :
    iblk0 V c 4 t (ix1 j) = V c main_arg3 (ix1 j) := by
  show V c main_arg3 (((cfg0.win 4).blk t).view.emb (ix1 j)) = _
  refine congrArg _ (funext fun a => Fin.ext ?_)
  obtain ⟨-, -, -, -, -, -, -, -, e0, -⟩ := idx0 t
  match a with
  | ⟨0, _⟩ => show win0_4.index t (0 : Fin 1) * 128 + 1 * j.val = j.val; omega

theorem blk5 (c : Dev nD) (t : Fin cfg0.N) (k : Fin 128) (j : Fin 128) :
    iblk0 V c 5 t (ix2 k j) = V c main_arg4 (ix2 k j) := by
  show V c main_arg4 (((cfg0.win 5).blk t).view.emb (ix2 k j)) = _
  refine congrArg _ (funext fun a => Fin.ext ?_)
  obtain ⟨-, -, -, -, -, -, -, -, -, e0, e1, -⟩ := idx0 t
  match a with
  | ⟨0, _⟩ => show win0_5.index t (0 : Fin 2) * 128 + 1 * k.val = k.val; omega
  | ⟨1, _⟩ => show win0_5.index t (1 : Fin 2) * 128 + 1 * j.val = j.val; omega

/-- The rectified layer of the arrays a region is entered with. -/
def rOf (c : Dev nD) : Fin 100000 → Fin 128 → EReal :=
  relArr (V c main_v13) (fun v => V c main_v18 (ix2 (v 0) (0 : Fin 1))) (V c main_arg0) (V c main_arg2) (V c main_arg3) (V c main_arg4)

/-- The rectified layer as an array. -/
def R (c : Dev nD) : S100000x128.Idx → EReal := fun y => rOf V c (y 0) (y 1)

/-- Row (row t p) of the layer, from the blocks of point t. -/
theorem row_eq (c : Dev nD) (t : Fin cfg0.N) (p : Fin 4000) (q : Fin 128) :
    relRow (fun k => iblk0 V c 0 t (ix2 p k)) (iblk0 V c 1 t (ix2 p (0 : Fin 1))) (fun k => iblk0 V c 2 t (ix2 p k))
        (fun k j => iblk0 V c 3 t (ix2 k j)) (fun j => iblk0 V c 4 t (ix1 j)) (fun k j => iblk0 V c 5 t (ix2 k j)) q
      = rOf V c (row t p) q := by
  simp only [blk0, blk1, blk2, blk3, blk4, blk5]
  rfl

/-- The output block's local (p, q) is the array's (4000 t + p, q). -/
theorem emb6 (t : Fin cfg0.N) (p : Fin 4000) (q : Fin 128) :
    ((cfg0.win 6).blk t).view.emb (ix2 p q) = ix2 (row t p) q := by
  refine funext fun a => Fin.ext ?_
  obtain ⟨-, -, -, -, -, -, -, -, -, -, -, e0, e1, -⟩ := idx0 t
  match a with
  | ⟨0, _⟩ => show win0_6.index t (0 : Fin 2) * 4000 + 1 * p.val = 4000 * t.val + p.val; omega
  | ⟨1, _⟩ => show win0_6.index t (1 : Fin 2) * 128 + 1 * q.val = q.val; omega

/-- What point t writes back through the first output window is block t of the layer. -/
theorem flushed6 (c : Dev nD) (t : Fin cfg0.N) :
    (dat0 V c).flushed 6 t = ((cfg0.win 6).blk t).view.read (Elt Ideal) (R V c) := by
  show (cfg0.win 6).cut (grid0.coords t) ((dat0 V c).after 6 t) = _
  rw [after0_6]
  funext j
  show out0_6 (iblk0 V c 0 t) (iblk0 V c 1 t) (iblk0 V c 2 t) (iblk0 V c 3 t) (iblk0 V c 4 t) (iblk0 V c 5 t) j
    = R V c (((cfg0.win 6).blk t).view.emb j)
  obtain ⟨p, q, rfl⟩ : ∃ (p : Fin 4000) (q : Fin 128), j = ix2 p q := ⟨j 0, j 1, eq_ix2 j⟩
  rw [out6_apply, emb6, row_eq]
  rfl

/-- An index is in point t's block iff each coordinate is in the block's range. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v19_0).slice (win0_6.rect t)).set ↔ _
  rw [View.set_slice_whole, Rect.mem_set_unit]
  exact Iff.rfl

/-- Every index of the array is in the block of point (row / 4000). -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have hN' : grid0.N = 25 := N_0
  obtain ⟨t, ht⟩ : ∃ t : Fin cfg0.N, t.val = (i 0).val / 4000 := ⟨⟨(i 0).val / 4000, by omega⟩, rfl⟩
  refine ⟨t, flush0_6 t, ?_⟩
  rw [mem_blk6]
  obtain ⟨-, -, -, -, -, -, -, -, -, -, -, e0, e1, -⟩ := idx0 t
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The first output array after the region: the rectified layer of the entry arrays. -/
theorem final6 (c : Dev nD) : (dat0 V c).arrAt 6 cfg0.N = R V c :=
  (dat0 V c).arrAt_eq_of_cover 6 (R V c) (fun t _ => flushed6 V c t) cover6

end Cert.Sage.Region0

end
-- ==== Proof.SageRegion0Sums.lean ====
/-
  The first region's second and third output arrays after the run. Beside its 4000 rows of the rectified layer, grid
  point t of the 25 writes back two 8 x 128 blocks, to rows 8 t .. 8 t + 7 of two 200 x 128 arrays: row 8 t holds the
  column sums over the 4000 rows of tile t of the layer, respectively of its squares, and the seven other rows hold
  zero. Row 8 t + u of the per-tile sums (part) is exactly that: (8 t + u) mod 8 = u and (8 t + u) / 8 = t. Every row
  of a 200-row array lies in exactly the block of point (row / 8), so the two arrays end holding the per-tile sums of
  the layer and of its squares, for the arrays the region was entered with.
-/
import proofs.«165918_j24438363914372_2_alg».proof.Proof.SageRegion0

set_option maxRecDepth 16384

noncomputable section

open scoped BigOperators

namespace Cert.Sage.Region0

open Cert.KernelIdeal Cert.KernelIdeal.Gen Idealize.ShloMosaic Idealize.ShloMosaic.TcCoe Idealize.ShloMosaic.ValueIdx Idealize.SL.Sem Cert.Sage Cert.Sage.Body
open Idealize.ShloMosaic.Pipeline (Dat Cfg Window)

variable (V : (c : Dev nD) → (b : Ref sig .tc) → Buf (Elt Ideal) ((c : Thread nD τ).loc b))

/-- Row 8 t + u of a 200-row array is a row of it. -/
theorem lt200 (t : Fin cfg0.N) (u : Fin 8) : 8 * t.val + u.val < 200 := by
  have := t_lt t; have := u.isLt; omega

/-- Row 8 t + u of the per-tile sums: tile t's column sum in sublane 0, zero in the others. -/
theorem part_tile (r : Fin 100000 → Fin 128 → EReal) (t : Fin cfg0.N) (u : Fin 8) (q : Fin 128) (h : 8 * t.val + u.val < 200) :
    part r ⟨8 * t.val + u.val, h⟩ q = if u.val = 0 then ∑ s : Fin 4000, r (row t s) q else 0 := by
  have hu := u.isLt
  unfold part
  by_cases h0 : u.val = 0
  · rw [if_pos h0, if_pos (by show (8 * t.val + u.val) % 8 = 0; omega)]
    refine Finset.sum_congr rfl fun s _ => congrArg (fun i => r i q) (Fin.ext ?_)
    show 4000 * ((8 * t.val + u.val) / 8) + s.val = 4000 * t.val + s.val
    omega
  · rw [if_neg h0, if_neg (by show ¬ (8 * t.val + u.val) % 8 = 0; omega)]

/-- The per-tile column sums of the rectified layer, as a 200 x 128 array. -/
def P1 (c : Dev nD) : S200x128.Idx → EReal := fun y => part (rOf V c) (y 0) (y 1)

/-- The per-tile column sums of the rectified layer's squares, as a 200 x 128 array. -/
def P2 (c : Dev nD) : S200x128.Idx → EReal := fun y => part (fun i j => rOf V c i j * rOf V c i j) (y 0) (y 1)

/-! ## The second output window -/

/-- Output two's staging buffer after the body, at sublane u and column q: in sublane 0 the column sum over the 4000
    staged rows of the row-level layer, zero in the other sublanes. -/
theorem out7_apply (x0 : Vec Ideal S4000x128 .f32) (x1 : Vec Ideal S4000x1 .f32) (x2 : Vec Ideal S4000x128 .f32)
    (x3 : Vec Ideal S128x128 .f32) (x4 : Vec Ideal S128 .f32) (x5 : Vec Ideal S128x128 .f32) (u : Fin 8) (q : Fin 128) :
    out0_7 (F := Ideal) x0 x1 x2 x3 x4 x5 (ix2 u q)
      = if u.val = 0 then ∑ s : Fin 4000, relRow (fun k => x0 (ix2 s k)) (x1 (ix2 s (0 : Fin 1))) (fun k => x2 (ix2 s k)) (fun k j => x3 (ix2 k j))
            (fun j => x4 (ix1 j)) (fun k j => x5 (ix2 k j)) q else 0 := by
  unfold out0_7
  rw [View.canon_unit_zero hz2]
  simp only [View.ld_unit_zero (S := S4000x128) hz2, View.ld_unit_zero (S := S4000x1) hz2, View.ld_unit_zero (S := S128x128) hz2,
    View.ld_unit_zero (S := S128) hz1]
  rw [tilesum_apply]
  simp only [pay4_apply]

/-- The output block's local (u, q) is the array's (8 t + u, q). -/
theorem emb7 (t : Fin cfg0.N) (u : Fin 8) (q : Fin 128) :
    ((cfg0.win 7).blk t).view.emb (ix2 u q) = ix2 (⟨8 * t.val + u.val, lt200 t u⟩ : Fin 200) q := by
  refine funext fun a => Fin.ext ?_
  obtain ⟨-, -, -, -, -, -, -, -, -, -, -, -, -, e0, e1, -⟩ := idx0 t
  match a with
  | ⟨0, _⟩ => show win0_7.index t (0 : Fin 2) * 8 + 1 * u.val = 8 * t.val + u.val; omega
  | ⟨1, _⟩ => show win0_7.index t (1 : Fin 2) * 128 + 1 * q.val = q.val; omega

/-- What point t writes back through this window is rows 8 t .. 8 t + 7 of the per-tile sums of the layer. -/
theorem flushed7 (c : Dev nD) (t : Fin cfg0.N) :
    (dat0 V c).flushed 7 t = ((cfg0.win 7).blk t).view.read (Elt Ideal) (P1 V c) := by
  show (cfg0.win 7).cut (grid0.coords t) ((dat0 V c).after 7 t) = _
  rw [after0_7]
  funext j
  show out0_7 (iblk0 V c 0 t) (iblk0 V c 1 t) (iblk0 V c 2 t) (iblk0 V c 3 t) (iblk0 V c 4 t) (iblk0 V c 5 t) j
    = P1 V c (((cfg0.win 7).blk t).view.emb j)
  obtain ⟨u, q, rfl⟩ : ∃ (u : Fin 8) (q : Fin 128), j = ix2 u q := ⟨j 0, j 1, eq_ix2 j⟩
  rw [out7_apply, emb7]
  simp only [row_eq]
  show _ = part (rOf V c) ⟨8 * t.val + u.val, lt200 t u⟩ q
  rw [part_tile]

/-- An index is in point t's block iff each coordinate is in the block's range. -/
theorem mem_blk7 (t : Fin cfg0.N) (i : S200x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v19_1).slice (win0_7.rect t)).set ↔ _
  rw [View.set_slice_whole, Rect.mem_set_unit]
  exact Iff.rfl

/-- Every index of the 200 x 128 array is in the block of point (row / 8). -/
theorem cover7 (i : S200x128.Idx) : ∃ t : Fin cfg0.N, (cfg0.win 7).flush t = true ∧ i ∈ ((cfg0.win 7).blk t).view.set := by
  have hi0 : (i 0).val < 200 := (i 0).isLt
  have hi1 : (i 1).val < 128 := (i 1).isLt
  have hN : cfg0.N = 25 := N_0
  have hN' : grid0.N = 25 := N_0
  obtain ⟨t, ht⟩ : ∃ t : Fin cfg0.N, t.val = (i 0).val / 8 := ⟨⟨(i 0).val / 8, by omega⟩, rfl⟩
  refine ⟨t, flush0_7 t, ?_⟩
  rw [mem_blk7]
  obtain ⟨-, -, -, -, -, -, -, -, -, -, -, -, -, e0, e1, -⟩ := idx0 t
  intro a
  match a with
  | ⟨0, _⟩ =>
    show win0_7.index t (0 : Fin 2) * 8 ≤ (i 0).val ∧ (i 0).val < win0_7.index t (0 : Fin 2) * 8 + 8
    omega
  | ⟨1, _⟩ =>
    show win0_7.index t (1 : Fin 2) * 128 ≤ (i 1).val ∧ (i 1).val < win0_7.index t (1 : Fin 2) * 128 + 128
    omega

/-- The array after the region: the per-tile sums of the rectified layer of the entry arrays. -/
theorem final7 (c : Dev nD) : (dat0 V c).arrAt 7 cfg0.N = P1 V c :=
  (dat0 V c).arrAt_eq_of_cover 7 (P1 V c) (fun t _ => flushed7 V c t) cover7

/-! ## The third output window -/

/-- Output three's staging buffer after the body, at sublane u and column q: in sublane 0 the column sum over the 4000
    staged rows of the row-level layer's squares, zero in the other sublanes. -/
theorem out8_apply (x0 : Vec Ideal S4000x128 .f32) (x1 : Vec Ideal S4000x1 .f32) (x2 : Vec Ideal S4000x128 .f32)
    (x3 : Vec Ideal S128x128 .f32) (x4 : Vec Ideal S128 .f32) (x5 : Vec Ideal S128x128 .f32) (u : Fin 8) (q : Fin 128) :
    out0_8 (F := Ideal) x0 x1 x2 x3 x4 x5 (ix2 u q)
      = if u.val = 0 then ∑ s : Fin 4000, relRow (fun k => x0 (ix2 s k)) (x1 (ix2 s (0 : Fin 1))) (fun k => x2 (ix2 s k)) (fun k j => x3 (ix2 k j))
            (fun j => x4 (ix1 j)) (fun k j => x5 (ix2 k j)) q
          * relRow (fun k => x0 (ix2 s k)) (x1 (ix2 s (0 : Fin 1))) (fun k => x2 (ix2 s k)) (fun k j => x3 (ix2 k j))
            (fun j => x4 (ix1 j)) (fun k j => x5 (ix2 k j)) q else 0 := by
  unfold out0_8
  rw [View.canon_unit_zero hz2]
  simp only [View.ld_unit_zero (S := S4000x128) hz2, View.ld_unit_zero (S := S4000x1) hz2, View.ld_unit_zero (S := S128x128) hz2,
    View.ld_unit_zero (S := S128) hz1]
  rw [tilesumsq_apply]
  simp only [pay4_apply]

/-- The output block's local (u, q) is the array's (8 t + u, q). -/
theorem emb8 (t : Fin cfg0.N) (u : Fin 8) (q : Fin 128) :
    ((cfg0.win 8).blk t).view.emb (ix2 u q) = ix2 (⟨8 * t.val + u.val, lt200 t u⟩ : Fin 200) q := by
  refine funext fun a => Fin.ext ?_
  obtain ⟨-, -, -, -, -, -, -, -, -, -, -, -, -, -, -, e0, e1⟩ := idx0 t
  match a with
  | ⟨0, _⟩ => show win0_8.index t (0 : Fin 2) * 8 + 1 * u.val = 8 * t.val + u.val; omega
  | ⟨1, _⟩ => show win0_8.index t (1 : Fin 2) * 128 + 1 * q.val = q.val; omega

/-- What point t writes back through this window is rows 8 t .. 8 t + 7 of the per-tile sums of the layer's squares. -/
theorem flushed8 (c : Dev nD) (t : Fin cfg0.N) :
    (dat0 V c).flushed 8 t = ((cfg0.win 8).blk t).view.read (Elt Ideal) (P2 V c) := by
  show (cfg0.win 8).cut (grid0.coords t) ((dat0 V c).after 8 t) = _
  rw [after0_8]
  funext j
  show out0_8 (iblk0 V c 0 t) (iblk0 V c 1 t) (iblk0 V c 2 t) (iblk0 V c 3 t) (iblk0 V c 4 t) (iblk0 V c 5 t) j
    = P2 V c (((cfg0.win 8).blk t).view.emb j)
  obtain ⟨u, q, rfl⟩ : ∃ (u : Fin 8) (q : Fin 128), j = ix2 u q := ⟨j 0, j 1, eq_ix2 j⟩
  rw [out8_apply, emb8]
  simp only [row_eq]
  show _ = part (fun i j => rOf V c i j * rOf V c i j) ⟨8 * t.val + u.val, lt200 t u⟩ q
  rw [part_tile]

/-- An index is in point t's block iff each coordinate is in the block's range. -/
theorem mem_blk8 (t : Fin cfg0.N) (i : S200x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v19_2).slice (win0_8.rect t)).set ↔ _
  rw [View.set_slice_whole, Rect.mem_set_unit]
  exact Iff.rfl

/-- Every index of the 200 x 128 array is in the block of point (row / 8). -/
theorem cover8 (i : S200x128.Idx) : ∃ t : Fin cfg0.N, (cfg0.win 8).flush t = true ∧ i ∈ ((cfg0.win 8).blk t).view.set := by
  have hi0 : (i 0).val < 200 := (i 0).isLt
  have hi1 : (i 1).val < 128 := (i 1).isLt
  have hN : cfg0.N = 25 := N_0
  have hN' : grid0.N = 25 := N_0
  obtain ⟨t, ht⟩ : ∃ t : Fin cfg0.N, t.val = (i 0).val / 8 := ⟨⟨(i 0).val / 8, by omega⟩, rfl⟩
  refine ⟨t, flush0_8 t, ?_⟩
  rw [mem_blk8]
  obtain ⟨-, -, -, -, -, -, -, -, -, -, -, -, -, -, -, e0, e1⟩ := idx0 t
  intro a
  match a with
  | ⟨0, _⟩ =>
    show win0_8.index t (0 : Fin 2) * 8 ≤ (i 0).val ∧ (i 0).val < win0_8.index t (0 : Fin 2) * 8 + 8
    omega
  | ⟨1, _⟩ =>
    show win0_8.index t (1 : Fin 2) * 128 ≤ (i 1).val ∧ (i 1).val < win0_8.index t (1 : Fin 2) * 128 + 128
    omega

/-- The array after the region: the per-tile sums of the rectified layer's squares of the entry arrays. -/
theorem final8 (c : Dev nD) : (dat0 V c).arrAt 8 cfg0.N = P2 V c :=
  (dat0 V c).arrAt_eq_of_cover 8 (P2 V c) (fun t _ => flushed8 V c t) cover8

end Cert.Sage.Region0

end
-- ==== Proof.SageRegion1.lean ====
/-
  The second region's output array after the run. The region has 20 grid points; point t stages rows
  5000 t .. 5000 t + 4999 of the rectified layer and the whole 1 x 128 mean, variance, scale and shift rows, and writes
  back 5000 rows of (x - mean) * (1 / sqrt (var + eps)) * scale + shift. Every row of the 100000 x 128 result lies in the
  block of point (row / 5000), so the result ends holding that expression of the arrays the region was entered with.
  Stated for any entry contents V.
-/
import proofs.«165918_j24438363914372_2_alg».proof.Proof.Gen.KernelIdeal.Frame
import proofs.«165918_j24438363914372_2_alg».proof.Proof.SageBody
import Idealize.ShloMosaic.Lib.Pipeline.Value

set_option maxRecDepth 16384

noncomputable section

open scoped BigOperators

namespace Cert.Sage.Region1

open Cert.KernelIdeal Cert.KernelIdeal.Gen Idealize.ShloMosaic Idealize.ShloMosaic.TcCoe Idealize.ShloMosaic.ValueIdx Idealize.SL.Sem Cert.Sage Cert.Sage.Body
open Idealize.ShloMosaic.Pipeline (Dat Cfg Window)

variable (V : (c : Dev nD) → (b : Ref sig .tc) → Buf (Elt Ideal) ((c : Thread nD τ).loc b))

/-- The zero offsets of a whole-buffer access. -/
theorem hz2 : (![0, 0] : Fin 2 → Nat) = fun _ => 0 := funext fun a => by fin_cases a <;> rfl

/-- The second kernel's body at (p, c): centre by the mean, multiply by the reciprocal deviation, scale and shift. -/
theorem pay1_apply (v0 : Vec Ideal S5000x128 .f32) (v2 v9 v15 v19 : Vec Ideal S1x128 .f32) (p : Fin 5000) (c : Fin 128) :
    k1_pay1 (F := Ideal) v0 v2 v9 v15 v19 (ix2 p c)
      = (v0 (ix2 p c) - v9 (ix2 (0 : Fin 1) c)) * Ideal.div one (Ideal.sqrt (v2 (ix2 (0 : Fin 1) c) + eps)) * v15 (ix2 (0 : Fin 1) c)
          + v19 (ix2 (0 : Fin 1) c) := by
  unfold k1_pay1
  simp only [addf_apply, mulf_apply, subf_apply, divf_apply, sqrt_apply', broadcast_apply, broadcastTo_1b_ab_apply,
    shapeCast_self, Ideal.ofBits_def]
  rfl

/-- The output's staging buffer after the body, at (p, q). -/
theorem out5_apply (x0 : Vec Ideal S5000x128 .f32) (x1 x2 x3 x4 : Vec Ideal S1x128 .f32) (p : Fin 5000) (q : Fin 128) :
    out1_5 (F := Ideal) x0 x1 x2 x3 x4 (ix2 p q)
      = (x0 (ix2 p q) - x1 (ix2 (0 : Fin 1) q)) * Ideal.div one (Ideal.sqrt (x2 (ix2 (0 : Fin 1) q) + eps)) * x3 (ix2 (0 : Fin 1) q)
          + x4 (ix2 (0 : Fin 1) q) := by
  unfold out1_5
  rw [View.canon_unit_zero hz2]
  simp only [View.ld_unit_zero (S := S5000x128) hz2, View.ld_unit_zero (S := S1x128) hz2]
  exact pay1_apply x0 x2 x1 x3 x4 p q

/-- The printed index maps over the 20 grid points. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is below 20. -/
theorem t_lt (t : Fin cfg1.N) : t.val < 20 := by
  have := t.isLt; have hN : cfg1.N = 20 := N_1; omega

/-- Row p of tile t, among 20 tiles of 5000 rows. -/
def row (t : Fin cfg1.N) (p : Fin 5000) : Fin 100000 := ⟨5000 * t.val + p.val, by have := t_lt t; have := p.isLt; omega⟩

/-- Each input window's block at point t, read at local coordinates, is its array at the global ones: the rows
    at row 5000 t + p, the four 1 x 128 rows whole. -/
theorem blk0 (c : Dev nD) (t : Fin cfg1.N) (p : Fin 5000) (k : Fin 128) :
    iblk1 V c 0 t (ix2 p k) = V c main_v19_0 (ix2 (row t p) k) := by
  show V c main_v19_0 (((cfg1.win 0).blk t).view.emb (ix2 p k)) = _
  refine congrArg _ (funext fun a => Fin.ext ?_)
  obtain ⟨e0, e1, -⟩ := idx1 t
  match a with
  | ⟨0, _⟩ => show win1_0.index t (0 : Fin 2) * 5000 + 1 * p.val = 5000 * t.val + p.val; omega
  | ⟨1, _⟩ => show win1_0.index t (1 : Fin 2) * 128 + 1 * k.val = k.val; omega

theorem blk1 (c : Dev nD) (t : Fin cfg1.N) (u : Fin 1) (k : Fin 128) :
    iblk1 V c 1 t (ix2 u k) = V c main_v25 (ix2 u k) := by
  show V c main_v25 (((cfg1.win 1).blk t).view.emb (ix2 u k)) = _
  refine congrArg _ (funext fun a => Fin.ext ?_)
  obtain ⟨-, -, e0, e1, -⟩ := idx1 t
  match a with
  | ⟨0, _⟩ => show win1_1.index t (0 : Fin 2) * 1 + 1 * u.val = u.val; omega
  | ⟨1, _⟩ => show win1_1.index t (1 : Fin 2) * 128 + 1 * k.val = k.val; omega

theorem blk2 (c : Dev nD) (t : Fin cfg1.N) (u : Fin 1) (k : Fin 128) :
    iblk1 V c 2 t (ix2 u k) = V c main_v31 (ix2 u k) := by
  show V c main_v31 (((cfg1.win 2).blk t).view.emb (ix2 u k)) = _
  refine congrArg _ (funext fun a => Fin.ext ?_)
  obtain ⟨-, -, -, -, e0, e1, -⟩ := idx1 t
  match a with
  | ⟨0, _⟩ => show win1_2.index t (0 : Fin 2) * 1 + 1 * u.val = u.val; omega
  | ⟨1, _⟩ => show win1_2.index t (1 : Fin 2) * 128 + 1 * k.val = k.val; omega

theorem blk3 (c : Dev nD) (t : Fin cfg1.N) (u : Fin 1) (k : Fin 128) :
    iblk1 V c 3 t (ix2 u k) = V c main_v32 (ix2 u k) := by
  show V c main_v32 (((cfg1.win 3).blk t).view.emb (ix2 u k)) = _
  refine congrArg _ (funext fun a => Fin.ext ?_)
  obtain ⟨-, -, -, -, -, -, e0, e1, -⟩ := idx1 t
  match a with
  | ⟨0, _⟩ => show win1_3.index t (0 : Fin 2) * 1 + 1 * u.val = u.val; omega
  | ⟨1, _⟩ => show win1_3.index t (1 : Fin 2) * 128 + 1 * k.val = k.val; omega

theorem blk4 (c : Dev nD) (t : Fin cfg1.N) (u : Fin 1) (k : Fin 128) :
    iblk1 V c 4 t (ix2 u k) = V c main_v33 (ix2 u k) := by
  show V c main_v33 (((cfg1.win 4).blk t).view.emb (ix2 u k)) = _
  refine congrArg _ (funext fun a => Fin.ext ?_)
  obtain ⟨-, -, -, -, -, -, -, -, e0, e1, -⟩ := idx1 t
  match a with
  | ⟨0, _⟩ => show win1_4.index t (0 : Fin 2) * 1 + 1 * u.val = u.val; omega
  | ⟨1, _⟩ => show win1_4.index t (1 : Fin 2) * 128 + 1 * k.val = k.val; omega

/-- The normalised array, from the rows, the mean row, the variance row, the scale row and the shift row. -/
def outOf (Rw : S100000x128.Idx → EReal) (M VA GA BE : S1x128.Idx → EReal) : S100000x128.Idx → EReal := fun y =>
  (Rw (ix2 (y 0) (y 1)) - M (ix2 (0 : Fin 1) (y 1))) * Ideal.div one (Ideal.sqrt (VA (ix2 (0 : Fin 1) (y 1)) + eps)) * GA (ix2 (0 : Fin 1) (y 1))
    + BE (ix2 (0 : Fin 1) (y 1))

/-- The normalised array of the arrays the second region is entered with. -/
def OUT (c : Dev nD) : S100000x128.Idx → EReal :=
  outOf (V c main_v19_0) (V c main_v25) (V c main_v31) (V c main_v32) (V c main_v33)

/-- The output block's local (p, q) is the array's (5000 t + p, q). -/
theorem emb5 (t : Fin cfg1.N) (p : Fin 5000) (q : Fin 128) :
    ((cfg1.win 5).blk t).view.emb (ix2 p q) = ix2 (row t p) q := by
  refine funext fun a => Fin.ext ?_
  obtain ⟨-, -, -, -, -, -, -, -, -, -, e0, e1⟩ := idx1 t
  match a with
  | ⟨0, _⟩ => show win1_5.index t (0 : Fin 2) * 5000 + 1 * p.val = 5000 * t.val + p.val; omega
  | ⟨1, _⟩ => show win1_5.index t (1 : Fin 2) * 128 + 1 * q.val = q.val; omega

/-- What point t writes back is block t of the normalised array. -/
theorem flushed5 (c : Dev nD) (t : Fin cfg1.N) :
    (dat1 V c).flushed 5 t = ((cfg1.win 5).blk t).view.read (Elt Ideal) (OUT V c) := by
  show (cfg1.win 5).cut (grid1.coords t) ((dat1 V c).after 5 t) = _
  rw [after1_5]
  funext j
  show out1_5 (iblk1 V c 0 t) (iblk1 V c 1 t) (iblk1 V c 2 t) (iblk1 V c 3 t) (iblk1 V c 4 t) j
    = OUT V c (((cfg1.win 5).blk t).view.emb j)
  obtain ⟨p, q, rfl⟩ : ∃ (p : Fin 5000) (q : Fin 128), j = ix2 p q := ⟨j 0, j 1, eq_ix2 j⟩
  rw [out5_apply, emb5, blk0, blk1, blk2, blk3, blk4]
  rfl

/-- An index is in point t's block iff each coordinate is in the block's range. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Every index of the array is in the block of point (row / 5000). -/
theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hN' : grid1.N = 20 := N_1
  obtain ⟨t, ht⟩ : ∃ t : Fin cfg1.N, t.val = (i 0).val / 5000 := ⟨⟨(i 0).val / 5000, by omega⟩, rfl⟩
  refine ⟨t, flush1_5 t, ?_⟩
  rw [mem_blk5]
  obtain ⟨-, -, -, -, -, -, -, -, -, -, e0, e1⟩ := idx1 t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The result array after the second region: the normalised array of the entry arrays. -/
theorem final5 (c : Dev nD) : (dat1 V c).arrAt 5 cfg1.N = OUT V c :=
  (dat1 V c).arrAt_eq_of_cover 5 (OUT V c) (fun t _ => flushed5 V c t) cover5

end Cert.Sage.Region1

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.SageBetween.lean ====
/-
  The stretch of host operations between the two regions, read at an index. From the two 200 x 128 arrays of per-tile
  column sums the host takes the column sums, divides by the row count to get the mean and the mean of squares, forms
  max (E[x^2] - mean^2) 0, and recasts the scale and the shift vectors as 1 x 128 rows. The first region's row output and
  the arguments pass through untouched.
-/
import proofs.«165918_j24438363914372_2_alg».proof.Proof.Gen.KernelIdeal.Frame
import proofs.«165918_j24438363914372_2_alg».proof.Proof.SageSpec
import proofs.«165918_j24438363914372_2_alg».proof.Proof.LibColReduce
import proofs.«165918_j24438363914372_2_alg».proof.Proof.LibBroadcastInDim
import Idealize.ShloMosaic.Lib.StableHlo.Run
import Idealize.ShloMosaic.Lib.ValueLayout

set_option maxRecDepth 16384

noncomputable section

open scoped BigOperators

namespace Cert.Sage.Between

open Cert.KernelIdeal Cert.KernelIdeal.Gen Idealize.ShloMosaic Idealize.ShloMosaic.TcCoe Idealize.ShloMosaic.ValueIdx Idealize.SL.Sem Cert.Sage Idealize.ShloMosaic.StableHlo

variable (m : (ℓ : Loc nD τ sig) → Buf (Elt Ideal) ℓ) (ρ : Dev nD → PrngReg)

/-- The mean row the host computes from the 200-row array of per-tile column sums: their column sum over the count. -/
def meanArr (P : S200x128.Idx → EReal) : S1x128.Idx → EReal :=
  Host.divf (F := Ideal)
    (broadcastInDim S1x128 ![1] bcast_S128_S1x128_1
      (Host.reduceAdd (F := Ideal) P (constant (F := Ideal) S_ .f32 0x00000000#32) reducesTo_S200x128_S128_d0 h_S_))
    (broadcastInDim S1x128 ![] bcast_S_S1x128 (constant (F := Ideal) S_ .f32 0x47C35000#32))

/-- The variance row: the mean of the squares minus the square of the mean, kept at or above zero. -/
def varArr (P1 P2 : S200x128.Idx → EReal) : S1x128.Idx → EReal :=
  maximumf (F := Ideal) (subf (meanArr P2) (mulf (meanArr P1) (meanArr P1)))
    (broadcastInDim S1x128 ![] bcast_S_S1x128 (constant (F := Ideal) S_ .f32 0x00000000#32))

/-- The mean row entering the second region is the host's mean of the first region's sums. -/
theorem V3_mean (c : Dev nD) : V3 m ρ c main_v25 = meanArr (W2 m ρ c (Proc.devRef .tc main_v19_1)) := by
  show StableHlo.after hostOps1 (W2 m ρ c) (Proc.devRef .tc main_v25) = _
  after_results
  rfl

/-- The variance row entering the second region. -/
theorem V3_var (c : Dev nD) :
    V3 m ρ c main_v31 = varArr (W2 m ρ c (Proc.devRef .tc main_v19_1)) (W2 m ρ c (Proc.devRef .tc main_v19_2)) := by
  show StableHlo.after hostOps1 (W2 m ρ c) (Proc.devRef .tc main_v31) = _
  after_results
  rfl

/-- The scale row entering the second region, at column q, is the scale argument at q. -/
theorem V3_scale (c : Dev nD) (q : Fin 128) :
    V3 m ρ c main_v32 (ix2 (0 : Fin 1) q) = W2 m ρ c (Proc.devRef .tc main_arg5) (ix1 q) := by
  have e : V3 m ρ c main_v32 = shapeCast S1x128 (W2 m ρ c (Proc.devRef .tc main_arg5)) shapeCasts_S128_S1x128 := by
    show StableHlo.after hostOps1 (W2 m ρ c) (Proc.devRef .tc main_v32) = _
    after_results
    rfl
  rw [e]
  exact shapeCast_a_1a_apply _ _ 0 q

/-- The shift row likewise. -/
theorem V3_shift (c : Dev nD) (q : Fin 128) :
    V3 m ρ c main_v33 (ix2 (0 : Fin 1) q) = W2 m ρ c (Proc.devRef .tc main_arg6) (ix1 q) := by
  have e : V3 m ρ c main_v33 = shapeCast S1x128 (W2 m ρ c (Proc.devRef .tc main_arg6)) shapeCasts_S128_S1x128 := by
    show StableHlo.after hostOps1 (W2 m ρ c) (Proc.devRef .tc main_v33) = _
    after_results
    rfl
  rw [e]
  exact shapeCast_a_1a_apply _ _ 0 q

/-- The mean row at column q: the column sum of the 200 rows over the count (the sum's initial value is zero). -/
theorem meanArr_apply (P : S200x128.Idx → EReal) (q : Fin 128) :
    meanArr P (ix2 (0 : Fin 1) q) = Ideal.div (∑ s : Fin 200, P (ix2 s q)) cnt := by
  unfold meanArr
  show Ideal.div (broadcastInDim S1x128 ![1] bcast_S128_S1x128_1
      (Host.reduceAdd (F := Ideal) P (constant (F := Ideal) S_ .f32 0x00000000#32) reducesTo_S200x128_S128_d0 h_S_) (ix2 (0 : Fin 1) q))
    (broadcastInDim S1x128 ![] bcast_S_S1x128 (constant (F := Ideal) S_ .f32 0x47C35000#32) (ix2 (0 : Fin 1) q)) = _
  rw [broadcastInDim_vec_row_apply, broadcastInDim_scalar_apply]
  simp only [Host.reduceAdd, Ideal.hostReduceAdd_def]
  rw [hostReduceAdd_col reducesTo_S200x128_S128_d0 (by decide), constant_apply, constant_apply, Ideal.ofBits_zero_f32, zero_add]
  rfl

/-- The variance row at column q. -/
theorem varArr_apply (P1 P2 : S200x128.Idx → EReal) (q : Fin 128) :
    varArr P1 P2 (ix2 (0 : Fin 1) q)
      = max (Ideal.div (∑ s : Fin 200, P2 (ix2 s q)) cnt
          - Ideal.div (∑ s : Fin 200, P1 (ix2 s q)) cnt * Ideal.div (∑ s : Fin 200, P1 (ix2 s q)) cnt) 0 := by
  unfold varArr
  show max (meanArr P2 (ix2 (0 : Fin 1) q) - meanArr P1 (ix2 (0 : Fin 1) q) * meanArr P1 (ix2 (0 : Fin 1) q))
    (broadcastInDim S1x128 ![] bcast_S_S1x128 (constant (F := Ideal) S_ .f32 0x00000000#32) (ix2 (0 : Fin 1) q)) = _
  rw [meanArr_apply, meanArr_apply, broadcastInDim_scalar_apply, constant_apply, Ideal.ofBits_zero_f32]

/-- The host stretch between the regions writes none of the first region's row output. -/
theorem V3_rows (c : Dev nD) : V3 m ρ c main_v19_0 = W2 m ρ c (Proc.devRef .tc main_v19_0) :=
  StableHlo.after_of_forall_not_mem (b := Proc.devRef .tc main_v19_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The scale and shift arguments are as launched when the stretch between the regions starts. -/
theorem W2_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- The shift argument likewise. -/
theorem W2_arg6 (c : Dev nD) : W2 m ρ c (Proc.devRef .tc main_arg6) = m ((c : Thread nD τ).loc main_arg6) :=
  (W2_of_ne m ρ c main_arg6 (by decide)).trans
    ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

end Cert.Sage.Between

end
-- ==== Proof.SagePrefix.lean ====
/-
  Before its first pipelined region the kernel program runs the same host operations as the reference program: the two
  rows of the edge list are sliced out and flattened, negative source indices are wrapped by the row count, the source
  rows are gathered and added into the rows the targets name (the aggregated neighbour features), ones are added into
  the entries the targets name (the in-degrees), and the in-degrees are recast as a column. So the contents the first
  region finds are the reference's aggregated features and, read at row i of the column, the reference's in-degree at
  i; and the arguments, which none of these operations writes, are as launched.
-/
import proofs.«165918_j24438363914372_2_alg».proof.Proof.Gen.KernelIdeal.Frame
import proofs.«165918_j24438363914372_2_alg».proof.Proof.Gen.ReferenceIdeal.Read
import Idealize.ShloMosaic.Lib.StableHlo.Run
import proofs.«165918_j24438363914372_2_alg».proof.Proof.LibKeepdims

set_option maxRecDepth 16384

noncomputable section

namespace Cert.Sage.Prefix

open Idealize.ShloMosaic Idealize.ShloMosaic.TcCoe
open Cert.KernelIdeal Cert.KernelIdeal.Gen

variable (m : (ℓ : Loc nD τ sig) → Buf (Elt Ideal) ℓ) (ρ : Dev nD → PrngReg)

/-- The aggregated neighbour features the kernel program computes before its first region are the reference's. -/
theorem V1_agg (c : Dev nD) :
    (V1 m ρ c main_v13 : S100000x128.Idx → EReal)
      = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v13) = _
  after_results
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rfl

/-- The in-degree column the first region reads, at row i, is the reference's in-degree at i. -/
theorem V1_deg (c : Dev nD) (i : Fin 100000) :
    (V1 m ρ c main_v18 : S100000x1.Idx → EReal) (ValueIdx.ix2 i (0 : Fin 1))
      = Cert.ReferenceIdeal.Read.val_main_v17 (F := Ideal) (m ((c.tc : Thread nD τ).loc main_arg1)) (ValueIdx.ix1 i) := by
  have e : (V1 m ρ c main_v18 : S100000x1.Idx → EReal)
      = shapeCast S100000x1 (Cert.ReferenceIdeal.Read.val_main_v17 (F := Ideal) (m ((c.tc : Thread nD τ).loc main_arg1)))
          shapeCasts_S100000_S100000x1 := by
    show StableHlo.after hostOps0 (W0 m ρ c) (Proc.devRef .tc main_v18) = _
    after_results
    unfold Cert.ReferenceIdeal.Read.val_main_v17 Cert.ReferenceIdeal.Read.val_main_v16 Cert.ReferenceIdeal.Read.val_main_v15 Cert.ReferenceIdeal.Read.val_main_v14 Cert.ReferenceIdeal.Read.val_main_v3 Cert.ReferenceIdeal.Read.val_main_v2 Cert.ReferenceIdeal.Read.val_main_cst_1 Cert.ReferenceIdeal.Read.val_main_cst_2
    rfl
  exact (congrFun e _).trans (ValueIdx.shapeCast_a_a1_apply _ _ i 0)

/-- No host operation before the first region writes an argument. -/
theorem V1_arg0 (c : Dev nD) : V1 m ρ c main_arg0 = m ((c.tc : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg0) := rfl

theorem V1_arg2 (c : Dev nD) : V1 m ρ c main_arg2 = m ((c.tc : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg2) := rfl

theorem V1_arg3 (c : Dev nD) : V1 m ρ c main_arg3 = m ((c.tc : Thread nD τ).loc main_arg3) :=
  calc V1 m ρ c main_arg3
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg3) := rfl

theorem V1_arg4 (c : Dev nD) : V1 m ρ c main_arg4 = m ((c.tc : Thread nD τ).loc main_arg4) :=
  calc V1 m ρ c main_arg4
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg4) := rfl

end Cert.Sage.Prefix
end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.SageAlgebra.lean ====
/-
  The algebra behind the normalised layer of SageSpec.lean.

  * The four float words are the reals 1, 100000, 9223372 / 2 ^ 63 and 10995116 / 2 ^ 40; the last two are positive.
  * An entry of a row divided by max (the row's Euclidean norm) tiny and rectified is a real number, whatever extended
    reals the row holds: the divisor is at least tiny > 0; if it is ⊤ the quotient is 0, and if it is below ⊤ then the
    sum of squares is below ⊤, each square is below ⊤, and each entry is real.
  * The 200 rows of per-tile column sums add up to the column sum over the 100000 rows.
  * Over real entries r with column mean m, E[r ^ 2] - m ^ 2 = E[(r - m) ^ 2] >= 0, so the variance floored at 0 is
    the mean of squared deviations; its sum with eps is a positive real, whose square root is a nonzero real s, and
    y * (1 / s) = y / s. Hence the two normalisations agree, and so do the two forms of the whole network.
-/
import proofs.«165918_j24438363914372_2_alg».proof.Proof.SageSpec
import proofs.«165918_j24438363914372_2_alg».proof.Proof.LibTileSum

noncomputable section

open scoped BigOperators

namespace Cert.Sage

open Idealize.ShloMosaic Idealize.ShloMosaic.ValueIdx

/-! ## The four constants -/

/-- The word 0x3F800000 (exponent field 127, zero fraction) denotes 1. -/
theorem one_eq : one = 1 := by
  unfold one
  simp [Ideal.ofBits, Ideal.ieee, -EReal.coe_mul]; norm_num

/-- The word 0x47C35000 (exponent field 143, fraction 4411392) denotes 12800000 / 2 ^ 7 = 100000. -/
theorem cnt_eq : cnt = ((100000 : ℝ) : EReal) := by
  unfold cnt
  simp [Ideal.ofBits, Ideal.ieee, -EReal.coe_mul]; norm_num

/-- The word 0x2B8CBCCC (sign 0, exponent field 87, fraction 834764) denotes 9223372 / 2 ^ 63. -/
theorem tiny_eq : tiny = ((9223372 * (2 : ℝ) ^ (-63 : ℤ) : ℝ) : EReal) := by
  unfold tiny
  simp [Ideal.ofBits, Ideal.ieee, -EReal.coe_mul]

/-- The word 0x3727C5AC (sign 0, exponent field 110, fraction 2606508) denotes 10995116 / 2 ^ 40. -/
theorem eps_eq : eps = ((10995116 * (2 : ℝ) ^ (-40 : ℤ) : ℝ) : EReal) := by
  unfold eps
  simp [Ideal.ofBits, Ideal.ieee, -EReal.coe_mul]

/-- The norm's floor is a positive real. -/
theorem tiny_pos : ∃ e : ℝ, 0 < e ∧ tiny = (e : EReal) := ⟨_, by positivity, tiny_eq⟩

/-- The variance's offset is a positive real. -/
theorem eps_pos : ∃ e : ℝ, 0 < e ∧ eps = (e : EReal) := ⟨_, by positivity, eps_eq⟩

/-! ## A row divided by its floored norm, then rectified, is real -/

/-- A square is nonnegative over the extended reals too: both infinities square to ⊤. -/
theorem mul_self_nonneg_ereal (x : EReal) : 0 ≤ x * x := by
  induction x using EReal.rec with
  | bot => rw [EReal.bot_mul_bot]; exact le_top
  | coe t => rw [← EReal.coe_mul]; exact_mod_cast mul_self_nonneg t
  | top => rw [EReal.top_mul_top]; exact le_top

/-- An extended real whose square is not ⊤ is a real number. -/
theorem real_of_mul_self_ne_top (x : EReal) (h : x * x ≠ ⊤) : ∃ t : ℝ, x = (t : EReal) := by
  induction x using EReal.rec with
  | bot => exact absurd EReal.bot_mul_bot h
  | coe t => exact ⟨t, rfl⟩
  | top => exact absurd EReal.top_mul_top h

/-- For ANY extended reals a k, the entry a j divided by max (sqrt (sum_k a k * a k)) tiny and then rectified is a
    real number. The divisor D is at least tiny, so it is positive and the quotient is a j * D⁻¹. If D = ⊤ the
    quotient is a j * 0 = 0. Otherwise D is a positive real, the sum of squares is below ⊤, so is the one square
    a j * a j below it, hence a j is real, and so are the quotient and its maximum with 0. -/
theorem rectified_quotient_real (a : Fin 128 → EReal) (j : Fin 128) :
    ∃ ρ : ℝ, max (Ideal.div (a j) (max (Ideal.sqrt (∑ k : Fin 128, a k * a k)) tiny)) 0 = (ρ : EReal) := by
  obtain ⟨e, he, hte⟩ := tiny_pos
  have hDpos : 0 < max (Ideal.sqrt (∑ k : Fin 128, a k * a k)) tiny :=
    lt_of_lt_of_le (by rw [hte]; exact_mod_cast he) (le_max_right _ _)
  rw [Ideal.div, if_neg hDpos.ne']
  by_cases htop : max (Ideal.sqrt (∑ k : Fin 128, a k * a k)) tiny = ⊤
  · refine ⟨0, ?_⟩
    rw [htop, EReal.inv_top, mul_zero, max_self, EReal.coe_zero]
  · obtain ⟨d, hd⟩ : ∃ d : ℝ, max (Ideal.sqrt (∑ k : Fin 128, a k * a k)) tiny = (d : EReal) :=
      ⟨_, (EReal.coe_toReal htop (ne_bot_of_gt hDpos)).symm⟩
    have hsq : Ideal.sqrt (∑ k : Fin 128, a k * a k) ≠ ⊤ := fun h => htop (by rw [h]; exact max_eq_left le_top)
    have hS : (∑ k : Fin 128, a k * a k) ≠ ⊤ := fun h => hsq (by rw [h]; rfl)
    have hle : a j * a j ≤ ∑ k : Fin 128, a k * a k :=
      Finset.single_le_sum (f := fun k => a k * a k) (fun k _ => mul_self_nonneg_ereal (a k)) (Finset.mem_univ j)
    obtain ⟨α, hα⟩ := real_of_mul_self_ne_top (a j) (fun h => hS (top_le_iff.mp (h ▸ hle)))
    rw [hd, hα, ← EReal.coe_inv, ← EReal.coe_mul]
    rcases le_total ((α * d⁻¹ : ℝ) : EReal) 0 with h | h
    · exact ⟨0, by rw [max_eq_right h, EReal.coe_zero]⟩
    · exact ⟨α * d⁻¹, by rw [max_eq_left h]⟩

/-- Every entry of the rectified, row-normalised layer is a real number, whatever extended reals the operands are. -/
theorem rel_real (agg : Fin 100000 → Fin 128 → EReal) (deg : Fin 100000 → EReal) (x : Fin 100000 → Fin 128 → EReal)
    (Wl : Fin 128 → Fin 128 → EReal) (bl : Fin 128 → EReal) (Wr : Fin 128 → Fin 128 → EReal) (i : Fin 100000)
    (j : Fin 128) : ∃ ρ : ℝ, rel agg deg x Wl bl Wr i j = (ρ : EReal) := by
  unfold rel nrm
  exact rectified_quotient_real (fun k => lin agg deg x Wl bl Wr i k) j

/-! ## The per-tile sums add up to the column sum -/

/-- The 200 rows of per-tile sums add up to the sum over all 100000 rows: the 200 rows are 25 groups of 8, only the
    first row of a group is nonzero and it holds the sum of that group's tile of 4000 rows, and the 25 tiles of 4000
    rows are all the rows. -/
theorem sum_part (f : Fin 100000 → Fin 128 → EReal) (j : Fin 128) :
    ∑ q : Fin 200, part f q j = ∑ i : Fin 100000, f i j := by
  have h8 : ∀ (t : Fin 25) (u : Fin 8), 8 * t.val + u.val < 200 := fun t u => by
    have := t.isLt; have := u.isLt; omega
  have h4000 : ∀ (t : Fin 25) (s : Fin 4000), 4000 * t.val + s.val < 100000 := fun t s => by
    have := t.isLt; have := s.isLt; omega
  have h1 : ∑ q : Fin 200, part f q j = ∑ t : Fin 25, ∑ u : Fin 8, part f ⟨8 * t.val + u.val, h8 t u⟩ j :=
    Cert.Lib.TileSum.sum_fin_tiles (M := EReal) 25 8 (fun q : Fin (25 * 8) => part f q j)
  have h2 : ∑ i : Fin 100000, f i j = ∑ t : Fin 25, ∑ s : Fin 4000, f ⟨4000 * t.val + s.val, h4000 t s⟩ j :=
    Cert.Lib.TileSum.sum_fin_tiles (M := EReal) 25 4000 (fun i : Fin (25 * 4000) => f i j)
  rw [h1, h2]
  refine Finset.sum_congr rfl fun t _ => ?_
  rw [Finset.sum_eq_single (0 : Fin 8)]
  · have h0 : ((0 : Fin 8) : ℕ) = 0 := rfl
    unfold part
    rw [if_pos (by show (8 * t.val + ((0 : Fin 8) : ℕ)) % 8 = 0; omega)]
    refine Finset.sum_congr rfl fun s _ => congrArg (fun i => f i j) (Fin.ext ?_)
    show 4000 * ((8 * t.val + ((0 : Fin 8) : ℕ)) / 8) + s.val = 4000 * t.val + s.val
    omega
  · intro u _ hu
    have hu' : u.val ≠ 0 := fun h => hu (Fin.ext h)
    have := u.isLt
    unfold part
    rw [if_neg (by show ¬ (8 * t.val + u.val) % 8 = 0; omega)]
  · intro h; exact absurd (Finset.mem_univ _) h

/-! ## Real arithmetic under the coercion -/

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- Dividing a real by the row count is the real quotient by 100000. -/
theorem div_cnt (t : ℝ) : Ideal.div (t : EReal) cnt = ((t / 100000 : ℝ) : EReal) := by
  rw [cnt_eq, Ideal.div_coe (by norm_num : (100000 : ℝ) ≠ 0), ← EReal.coe_mul, mul_one_div]

/-- Over 100000 reals with mean m, the mean of the squares less m ^ 2 is the mean of the squared deviations from m:
    expand (g i - m) ^ 2 and use sum_i g i = 100000 * m. -/
theorem var_identity (g : Fin 100000 → ℝ) :
    (∑ i, g i * g i) / 100000 - (∑ i, g i) / 100000 * ((∑ i, g i) / 100000)
      = (∑ i, (g i - (∑ i, g i) / 100000) * (g i - (∑ i, g i) / 100000)) / 100000 := by
  generalize hm : (∑ i, g i) / 100000 = m
  have hs : ∑ i, g i = 100000 * m := by rw [← hm]; ring
  have hexp : ∑ i, (g i - m) * (g i - m) = ∑ i, g i * g i - 2 * m * ∑ i, g i + 100000 * (m * m) :=
    calc ∑ i, (g i - m) * (g i - m) = ∑ i, (g i * g i - 2 * m * g i + m * m) :=
          Finset.sum_congr rfl fun i _ => by ring
      _ = ∑ i, g i * g i - 2 * m * ∑ i, g i + 100000 * (m * m) := by
          rw [Finset.sum_add_distrib, Finset.sum_sub_distrib, ← Finset.mul_sum, Finset.sum_const, Finset.card_univ,
            Fintype.card_fin, nsmul_eq_mul, Nat.cast_ofNat]
  rw [hexp, hs]; ring

/-! ## The two normalisations over real entries -/

/-- The one-pass mean is the two-pass mean, over any entries. -/
theorem meanK_eq_meanR (r : Fin 100000 → Fin 128 → EReal) (j : Fin 128) : meanK r j = meanR r j := by
  unfold meanK meanR; rw [sum_part]

/-- Over real entries the column mean is the real mean. -/
theorem meanR_coe (ρ : Fin 100000 → Fin 128 → ℝ) (j : Fin 128) :
    meanR (fun i j => (ρ i j : EReal)) j = (((∑ i, ρ i j) / 100000 : ℝ) : EReal) := by
  unfold meanR; rw [← coe_sum, div_cnt]

/-- Over real entries the two-pass variance is the real mean of the squared deviations from the mean. -/
theorem varR_coe (ρ : Fin 100000 → Fin 128 → ℝ) (j : Fin 128) :
    varR (fun i j => (ρ i j : EReal)) j
      = (((∑ i, (ρ i j - (∑ i, ρ i j) / 100000) * (ρ i j - (∑ i, ρ i j) / 100000)) / 100000 : ℝ) : EReal) := by
  unfold varR; rw [meanR_coe]
  simp only [← EReal.coe_sub, ← EReal.coe_mul]
  rw [← coe_sum, div_cnt]

/-- The mean of squared deviations is nonnegative. -/
theorem var_nonneg (g : Fin 100000 → ℝ) (m : ℝ) : 0 ≤ (∑ i, (g i - m) * (g i - m)) / 100000 :=
  div_nonneg (Finset.sum_nonneg fun i _ => mul_self_nonneg _) (by norm_num)

/-- Over real entries the one-pass variance, mean of squares less squared mean floored at 0, is the two-pass one:
    the difference is the mean of squared deviations, which is already nonnegative. -/
theorem varK_coe (ρ : Fin 100000 → Fin 128 → ℝ) (j : Fin 128) :
    varK (fun i j => (ρ i j : EReal)) j
      = (((∑ i, (ρ i j - (∑ i, ρ i j) / 100000) * (ρ i j - (∑ i, ρ i j) / 100000)) / 100000 : ℝ) : EReal) := by
  unfold varK; rw [sum_part, meanK_eq_meanR, meanR_coe]
  simp only [← EReal.coe_mul]
  rw [← coe_sum, div_cnt, ← EReal.coe_sub, var_identity (fun i => ρ i j)]
  exact max_eq_left (by exact_mod_cast var_nonneg (fun i => ρ i j) _)

/-- The deviation sqrt (v + eps) of a nonnegative real variance v is not zero: v + eps is a positive real. -/
theorem sqrt_add_eps_ne_zero {v : ℝ} (hv : 0 ≤ v) : Ideal.sqrt ((v : EReal) + eps) ≠ 0 := by
  obtain ⟨e, he, hee⟩ := eps_pos
  rw [hee, ← EReal.coe_add, Ideal.sqrt_coe, if_neg (by linarith : ¬ v + e < 0)]
  have h : 0 < Real.sqrt (v + e) := Real.sqrt_pos.mpr (by linarith)
  exact_mod_cast h.ne'

/-- Multiplying by the reciprocal of a nonzero s is dividing by s. -/
theorem mul_div_one (y s : EReal) (hs : s ≠ 0) : y * Ideal.div one s = Ideal.div y s := by
  rw [Ideal.div, Ideal.div, if_neg hs, if_neg hs, one_eq, one_mul]

/-- Over real entries the one-pass and the two-pass normalisations agree. -/
theorem kerOut_eq_refOut (r : Fin 100000 → Fin 128 → EReal) (γ β : Fin 128 → EReal)
    (hr : ∀ i j, ∃ ρ : ℝ, r i j = (ρ : EReal)) : kerOut r γ β = refOut r γ β := by
  choose ρ hρ using hr
  obtain rfl : r = fun i j => (ρ i j : EReal) := funext fun i => funext fun j => hρ i j
  funext i j
  unfold kerOut refOut
  rw [meanK_eq_meanR, varK_coe, varR_coe, mul_div_one _ _ (sqrt_add_eps_ne_zero (var_nonneg (fun i => ρ i j) _))]

/-- The whole network in its one-pass form is the whole network in its two-pass form, at all extended-real operands:
    the rectified layer they normalise has real entries. -/
theorem GK_eq_G (A : SN.Idx → EReal) (D : SV.Idx → EReal) (X : SN.Idx → EReal) (WL : SW.Idx → EReal)
    (BL : SC.Idx → EReal) (WR : SW.Idx → EReal) (Γ B : SC.Idx → EReal) :
    GK A D X WL BL WR Γ B = G A D X WL BL WR Γ B := by
  funext y
  unfold GK G
  exact congrFun (congrFun (kerOut_eq_refOut (relArr A D X WL BL WR) _ _ (fun i j => rel_real _ _ _ _ _ _ i j)) (y 0)) (y 1)

end Cert.Sage

end
-- ==== Proof.SageKernel.lean ====
/-
  The idealized kernel program's result. Reading the run backwards: the result array is what the second region leaves,
  the normalisation of the rows by the mean, variance, scale and shift rows it was entered with; those rows are the
  host's one-pass statistics of the per-tile sums the first region left, and the scale and shift arguments; the rows
  and the per-tile sums are the rectified layer, and its tile sums, of the arrays the first region was entered with; and
  those are the aggregated features, the in-degrees and the arguments. So the result is the one-pass normalisation GK
  of the aggregated features, the in-degrees and the arguments — and, every entry of the rectified layer being a real
  number, the two-pass normalisation G as well.
-/
import proofs.«165918_j24438363914372_2_alg».proof.Proof.SageRun
import proofs.«165918_j24438363914372_2_alg».proof.Proof.SageRegion0Sums
import proofs.«165918_j24438363914372_2_alg».proof.Proof.SageRegion1
import proofs.«165918_j24438363914372_2_alg».proof.Proof.SageBetween
import proofs.«165918_j24438363914372_2_alg».proof.Proof.SagePrefix
import proofs.«165918_j24438363914372_2_alg».proof.Proof.SageAlgebra

set_option maxRecDepth 16384

noncomputable section

open scoped BigOperators

namespace Cert.Sage.Kernel

open Cert.KernelIdeal Cert.KernelIdeal.Gen Idealize.ShloMosaic Idealize.ShloMosaic.TcCoe Idealize.ShloMosaic.ValueIdx Idealize.SL.Sem Cert.Sage

variable (m : (ℓ : Loc nD τ sig) → Buf (Elt Ideal) ℓ) (ρ : Dev nD → PrngReg)

/-- What the first region leaves in its three output arrays, at the boundary after it. -/
theorem W2_rows (c : Dev nD) : W2 m ρ c (Proc.devRef .tc main_v19_0) = Region0.R (V1 m ρ) c :=
  (W2_arr m ρ c 6).trans (Region0.final6 (V1 m ρ) c)
theorem W2_sums (c : Dev nD) : W2 m ρ c (Proc.devRef .tc main_v19_1) = Region0.P1 (V1 m ρ) c :=
  (W2_arr m ρ c 7).trans (Region0.final7 (V1 m ρ) c)
theorem W2_sumsq (c : Dev nD) : W2 m ρ c (Proc.devRef .tc main_v19_2) = Region0.P2 (V1 m ρ) c :=
  (W2_arr m ρ c 8).trans (Region0.final8 (V1 m ρ) c)

/-- The rows the second region is entered with are the rectified layer. -/
theorem rows_eq (c : Dev nD) (i : Fin 100000) (j : Fin 128) :
    V3 m ρ c main_v19_0 (ix2 i j) = Region0.rOf (V1 m ρ) c i j := by
  rw [Between.V3_rows, W2_rows]
  rfl

/-- The mean row is the one-pass mean of the rectified layer. -/
theorem mean_eq (c : Dev nD) (q : Fin 128) :
    V3 m ρ c main_v25 (ix2 (0 : Fin 1) q) = meanK (Region0.rOf (V1 m ρ) c) q := by
  rw [Between.V3_mean, Between.meanArr_apply, W2_sums]
  rfl

/-- The variance row is the one-pass variance of the rectified layer. -/
theorem var_eq (c : Dev nD) (q : Fin 128) :
    V3 m ρ c main_v31 (ix2 (0 : Fin 1) q) = varK (Region0.rOf (V1 m ρ) c) q := by
  rw [Between.V3_var, Between.varArr_apply, W2_sums, W2_sumsq]
  rfl

/-- The rectified layer of the first region's entry arrays is that of the aggregated features, the in-degrees and the
    arguments. -/
theorem rOf_eq (c : Dev nD) :
    Region0.rOf (V1 m ρ) c
      = relArr (Cert.ReferenceIdeal.Read.val_main_v13 (F := Ideal) (m ((c.tc : Thread nD τ).loc main_arg0)) (m ((c.tc : Thread nD τ).loc main_arg1)))
          (Cert.ReferenceIdeal.Read.val_main_v17 (F := Ideal) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4)) := by
  unfold Region0.rOf relArr
  rw [Prefix.V1_agg, Prefix.V1_arg0, Prefix.V1_arg2, Prefix.V1_arg3, Prefix.V1_arg4]
  exact congrArg (fun d : Fin 100000 → EReal => rel _ d _ _ _ _) (funext fun i => Prefix.V1_deg m ρ c i)

/-- The normalised array at (i, j), spelt out. -/
theorem outOf_apply (Rw : S100000x128.Idx → EReal) (M VA GA BE : S1x128.Idx → EReal) (i : Fin 100000) (j : Fin 128) :
    Region1.outOf Rw M VA GA BE (ix2 i j)
      = (Rw (ix2 i j) - M (ix2 (0 : Fin 1) j)) * Ideal.div one (Ideal.sqrt (VA (ix2 (0 : Fin 1) j) + eps)) * GA (ix2 (0 : Fin 1) j)
          + BE (ix2 (0 : Fin 1) j) := rfl

/-- THE RESULT: the last boundary's contents at the result's buffer are the two-pass normalisation of the rectified
    layer of the aggregated features, the in-degrees and the arguments. -/
theorem result_eq (c : Dev nD) :
    W4 m ρ c (Proc.devRef .tc main_v34)
      = G (Cert.ReferenceIdeal.Read.val_main_v13 (F := Ideal) (m ((c.tc : Thread nD τ).loc main_arg0)) (m ((c.tc : Thread nD τ).loc main_arg1)))
          (Cert.ReferenceIdeal.Read.val_main_v17 (F := Ideal) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  rw [← GK_eq_G, Cert.KernelIdeal.Named.W4_result, Region1.final5]
  funext y
  obtain ⟨i, j, rfl⟩ : ∃ (i : Fin 100000) (j : Fin 128), y = ix2 i j := ⟨y 0, y 1, eq_ix2 y⟩
  unfold Region1.OUT
  rw [outOf_apply, rows_eq, mean_eq, var_eq, Between.V3_scale, Between.V3_shift, Between.W2_arg5, Between.W2_arg6, rOf_eq]
  rfl

end Cert.Sage.Kernel

end
-- ==== Proof.SageReference.lean ====
/-
  The reference program is the two-pass form of the layer. Read one operation at a time and at an index given by its
  coordinates, the program divides the aggregated neighbour features agg by max deg 1, applies the two linear maps and
  the bias (lin), divides each row by max (its Euclidean norm) tiny and rectifies it (rel), then takes each column's
  mean and its variance about that mean over the 100000 rows and returns (rel - mean) / sqrt (var + eps) * gamma + beta.
  Each lemma below identifies one stage of the program with the corresponding function of SageSpec; the aggregated
  features agg and the in-degrees deg enter as the two stages that are not read at an index.
-/
import proofs.«165918_j24438363914372_2_alg».proof.Proof.SageSpec
import proofs.«165918_j24438363914372_2_alg».proof.Proof.Gen.ReferenceIdeal.Read

noncomputable section

open scoped BigOperators

namespace Cert.Sage.Ref

open Idealize.ShloMosaic Idealize.ShloMosaic.ValueIdx Cert.ReferenceIdeal Cert.ReferenceIdeal.Read

/-! ## The program's index functions at an index given by its coordinates -/

theorem lidx23 (i : Fin 100000) (j k : Fin 128) : lidx_main_v23 (ix2 i j) k = ix2 i k :=
  funext fun a => Fin.ext (by match a with | ⟨0, _⟩ => rfl | ⟨1, _⟩ => rfl)
theorem ridx23 (i : Fin 100000) (j k : Fin 128) : ridx_main_v23 (ix2 i j) k = ix2 k j :=
  funext fun a => Fin.ext (by match a with | ⟨0, _⟩ => rfl | ⟨1, _⟩ => rfl)
theorem lidx27 (i : Fin 100000) (j k : Fin 128) : lidx_main_v27 (ix2 i j) k = ix2 i k :=
  funext fun a => Fin.ext (by match a with | ⟨0, _⟩ => rfl | ⟨1, _⟩ => rfl)
theorem ridx27 (i : Fin 100000) (j k : Fin 128) : ridx_main_v27 (ix2 i j) k = ix2 k j :=
  funext fun a => Fin.ext (by match a with | ⟨0, _⟩ => rfl | ⟨1, _⟩ => rfl)
theorem idx2021 (i : Fin 100000) (j : Fin 128) : idx_main_v20 (idx_main_v21 (ix2 i j)) = ix1 i :=
  funext fun a => Fin.ext (by match a with | ⟨0, _⟩ => rfl)
theorem idx2425 (i : Fin 100000) (j : Fin 128) : idx_main_v24 (idx_main_v25 (ix2 i j)) = ix1 j :=
  funext fun a => Fin.ext (by match a with | ⟨0, _⟩ => rfl)
theorem idx30 (i : Fin 100000) (k : Fin 128) : idx_main_v30 (ix1 i) k = ix2 i k :=
  funext fun a => Fin.ext (by match a with | ⟨0, _⟩ => rfl | ⟨1, _⟩ => rfl)
theorem idx3135 (i : Fin 100000) (j : Fin 128) : idx_main_v31 (idx_main_v35 (ix2 i j)) = ix1 i :=
  funext fun a => Fin.ext (by match a with | ⟨0, _⟩ => rfl)
theorem idx38 (j : Fin 128) (k : Fin 100000) : idx_main_v38 (ix1 j) k = ix2 k j :=
  funext fun a => Fin.ext (by match a with | ⟨0, _⟩ => rfl | ⟨1, _⟩ => rfl)
theorem idx4142 (i : Fin 100000) (j : Fin 128) : idx_main_v41 (idx_main_v42 (ix2 i j)) = ix1 j :=
  funext fun a => Fin.ext (by match a with | ⟨0, _⟩ => rfl)
theorem idx45 (j : Fin 128) (k : Fin 100000) : idx_main_v45 (ix1 j) k = ix2 k j :=
  funext fun a => Fin.ext (by match a with | ⟨0, _⟩ => rfl | ⟨1, _⟩ => rfl)
theorem idx4849 (i : Fin 100000) (j : Fin 128) : idx_main_v48 (idx_main_v49 (ix2 i j)) = ix1 j :=
  funext fun a => Fin.ext (by match a with | ⟨0, _⟩ => rfl)
theorem idx5455 (i : Fin 100000) (j : Fin 128) : idx_main_v54 (idx_main_v55 (ix2 i j)) = ix1 j :=
  funext fun a => Fin.ext (by match a with | ⟨0, _⟩ => rfl)
theorem idx5758 (i : Fin 100000) (j : Fin 128) : idx_main_v57 (idx_main_v58 (ix2 i j)) = ix1 j :=
  funext fun a => Fin.ext (by match a with | ⟨0, _⟩ => rfl)
theorem idx6061 (i : Fin 100000) (j : Fin 128) : idx_main_v60 (idx_main_v61 (ix2 i j)) = ix1 j :=
  funext fun a => Fin.ext (by match a with | ⟨0, _⟩ => rfl)

/-! ## The stages in coordinates -/

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

/-- The degree-averaged neighbour features. -/
theorem avg_eq (i : Fin 100000) (k : Fin 128) :
    val_main_v22 (F := Ideal) x0 x1 (ix2 i k)
      = Ideal.div (val_main_v13 (F := Ideal) x0 x1 (ix2 i k)) (max (val_main_v17 (F := Ideal) x1 (ix1 i)) Cert.Sage.one) := by
  rw [val_main_v22_apply, val_main_v21_apply, val_main_v20_apply, idx2021, val_main_v19_apply, val_main_v18_apply,
    val_main_cst_3_apply, Ideal.hostDivf_def, Ideal.maximumf_def, Ideal.ofBits_def]
  rfl

/-- The linear layer on the degree-averaged neighbour features and the node's own features. -/
theorem lin_eq (i : Fin 100000) (j : Fin 128) :
    val_main_v28 (F := Ideal) x0 x1 x2 x3 x4 (ix2 i j)
      = Cert.Sage.lin (fun i k => val_main_v13 (F := Ideal) x0 x1 (ix2 i k)) (fun i => val_main_v17 (F := Ideal) x1 (ix1 i))
          (fun i k => x0 (ix2 i k)) (fun k j => x2 (ix2 k j)) (fun j => x3 (ix1 j)) (fun k j => x4 (ix2 k j)) i j := by
  rw [val_main_v28_apply, val_main_v26_apply, val_main_v23_apply, val_main_v27_apply, val_main_v25_apply, val_main_v24_apply,
    idx2425, Ideal.addf_def, Ideal.addf_def]
  refine congrArg₂ (· + ·) (congrArg₂ (· + ·) (Finset.sum_congr rfl fun k _ => ?_) rfl) (Finset.sum_congr rfl fun k _ => ?_)
  · rw [lidx23, ridx23, avg_eq]
  · rw [lidx27, ridx27]

/-- A row's norm, broadcast along the row. -/
theorem nrm_eq (i : Fin 100000) (j : Fin 128) :
    val_main_v35 (F := Ideal) x0 x1 x2 x3 x4 (ix2 i j)
      = Cert.Sage.nrm (fun i k => val_main_v13 (F := Ideal) x0 x1 (ix2 i k)) (fun i => val_main_v17 (F := Ideal) x1 (ix1 i))
          (fun i k => x0 (ix2 i k)) (fun k j => x2 (ix2 k j)) (fun j => x3 (ix1 j)) (fun k j => x4 (ix2 k j)) i := by
  rw [val_main_v35_apply, val_main_v34_apply, val_main_v32_apply, val_main_v31_apply, idx3135, val_main_v30_apply,
    val_main_cst_4_apply, val_main_v33_apply, val_main_cst_5_apply, Ideal.maximumf_def, Ideal.hostUnary_sqrt_def,
    Ideal.ofBits_def, Ideal.ofBits_def, Ideal.ofBits_zero_f32, zero_add]
  have h : ∀ k : Fin 128, val_main_v29 (F := Ideal) x0 x1 x2 x3 x4 (idx_main_v30 (ix1 i) k)
      = Cert.Sage.lin (fun i k => val_main_v13 (F := Ideal) x0 x1 (ix2 i k)) (fun i => val_main_v17 (F := Ideal) x1 (ix1 i))
          (fun i k => x0 (ix2 i k)) (fun k j => x2 (ix2 k j)) (fun j => x3 (ix1 j)) (fun k j => x4 (ix2 k j)) i k
        * Cert.Sage.lin (fun i k => val_main_v13 (F := Ideal) x0 x1 (ix2 i k)) (fun i => val_main_v17 (F := Ideal) x1 (ix1 i))
          (fun i k => x0 (ix2 i k)) (fun k j => x2 (ix2 k j)) (fun j => x3 (ix1 j)) (fun k j => x4 (ix2 k j)) i k := fun k => by
    rw [idx30, val_main_v29_apply, Ideal.mulf_def, lin_eq]
  rw [Fintype.sum_congr _ _ h]
  rfl

/-- The rectified, row-normalised layer. -/
theorem rel_eq (i : Fin 100000) (j : Fin 128) :
    val_main_v37 (F := Ideal) x0 x1 x2 x3 x4 (ix2 i j)
      = Cert.Sage.relArr (val_main_v13 (F := Ideal) x0 x1) (val_main_v17 (F := Ideal) x1) x0 x2 x3 x4 i j := by
  rw [val_main_v37_apply, val_main_v36_apply, val_main_call0_v0_apply, val_main_call0_cst_apply, Ideal.maximumf_def,
    Ideal.hostDivf_def, Ideal.ofBits_def, Ideal.ofBits_zero_f32, lin_eq, nrm_eq]
  rfl

/-- A column's mean over the rows. -/
theorem mean_eq (j : Fin 128) :
    val_main_v40 (F := Ideal) x0 x1 x2 x3 x4 (ix1 j)
      = Cert.Sage.meanR (Cert.Sage.relArr (val_main_v13 (F := Ideal) x0 x1) (val_main_v17 (F := Ideal) x1) x0 x2 x3 x4) j := by
  rw [val_main_v40_apply, val_main_v38_apply, val_main_cst_6_apply, val_main_v39_apply, val_main_cst_7_apply,
    Ideal.hostDivf_def, Ideal.ofBits_def, Ideal.ofBits_def, Ideal.ofBits_zero_f32, zero_add]
  have h : ∀ k : Fin 100000, val_main_v37 (F := Ideal) x0 x1 x2 x3 x4 (idx_main_v38 (ix1 j) k)
      = Cert.Sage.relArr (val_main_v13 (F := Ideal) x0 x1) (val_main_v17 (F := Ideal) x1) x0 x2 x3 x4 k j := fun k => by
    rw [idx38, rel_eq]
  rw [Fintype.sum_congr _ _ h]
  rfl

/-- The mean, broadcast down the column, as the variance's pass reads it. -/
theorem meanB_eq (i : Fin 100000) (j : Fin 128) :
    val_main_v42 (F := Ideal) x0 x1 x2 x3 x4 (ix2 i j)
      = Cert.Sage.meanR (Cert.Sage.relArr (val_main_v13 (F := Ideal) x0 x1) (val_main_v17 (F := Ideal) x1) x0 x2 x3 x4) j := by
  rw [val_main_v42_apply, val_main_v41_apply, idx4142, mean_eq]

/-- The mean, broadcast down the column, as the normalisation reads it. -/
theorem meanB'_eq (i : Fin 100000) (j : Fin 128) :
    val_main_v49 (F := Ideal) x0 x1 x2 x3 x4 (ix2 i j)
      = Cert.Sage.meanR (Cert.Sage.relArr (val_main_v13 (F := Ideal) x0 x1) (val_main_v17 (F := Ideal) x1) x0 x2 x3 x4) j := by
  rw [val_main_v49_apply, val_main_v48_apply, idx4849, mean_eq]

/-- A column's variance about its mean. -/
theorem var_eq (j : Fin 128) :
    val_main_v47 (F := Ideal) x0 x1 x2 x3 x4 (ix1 j)
      = Cert.Sage.varR (Cert.Sage.relArr (val_main_v13 (F := Ideal) x0 x1) (val_main_v17 (F := Ideal) x1) x0 x2 x3 x4) j := by
  rw [val_main_v47_apply, val_main_v45_apply, val_main_cst_8_apply, val_main_v46_apply, val_main_cst_9_apply,
    Ideal.hostDivf_def, Ideal.ofBits_def, Ideal.ofBits_def, Ideal.ofBits_zero_f32, zero_add]
  have h : ∀ k : Fin 100000, val_main_v44 (F := Ideal) x0 x1 x2 x3 x4 (idx_main_v45 (ix1 j) k)
      = (Cert.Sage.relArr (val_main_v13 (F := Ideal) x0 x1) (val_main_v17 (F := Ideal) x1) x0 x2 x3 x4 k j - Cert.Sage.meanR (Cert.Sage.relArr (val_main_v13 (F := Ideal) x0 x1) (val_main_v17 (F := Ideal) x1) x0 x2 x3 x4) j)
        * (Cert.Sage.relArr (val_main_v13 (F := Ideal) x0 x1) (val_main_v17 (F := Ideal) x1) x0 x2 x3 x4 k j - Cert.Sage.meanR (Cert.Sage.relArr (val_main_v13 (F := Ideal) x0 x1) (val_main_v17 (F := Ideal) x1) x0 x2 x3 x4) j) := fun k => by
    rw [idx45, val_main_v44_apply, val_main_v43_apply, Ideal.mulf_def, Ideal.subf_def, rel_eq, meanB_eq]
  rw [Fintype.sum_congr _ _ h]
  rfl

/-- A column's deviation, broadcast down the column. -/
theorem sd_eq (i : Fin 100000) (j : Fin 128) :
    val_main_v55 (F := Ideal) x0 x1 x2 x3 x4 (ix2 i j)
      = Ideal.sqrt (Cert.Sage.varR (Cert.Sage.relArr (val_main_v13 (F := Ideal) x0 x1) (val_main_v17 (F := Ideal) x1) x0 x2 x3 x4) j + Cert.Sage.eps) := by
  rw [val_main_v55_apply, val_main_v54_apply, idx5455, val_main_v53_apply, val_main_v52_apply, val_main_v51_apply,
    val_main_cst_10_apply, Ideal.hostUnary_sqrt_def, Ideal.addf_def, Ideal.ofBits_def, var_eq]
  rfl

end

/-- The reference program computes the layer's two-pass form of the aggregated features and the in-degrees. -/
theorem reference_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) :
    val_main_v62 (F := Ideal) x0 x1 x2 x3 x4 x5 x6
      = Cert.Sage.G (val_main_v13 (F := Ideal) x0 x1) (val_main_v17 (F := Ideal) x1) x0 x2 x3 x4 x5 x6 := by
  funext y
  obtain ⟨i, j, rfl⟩ : ∃ (i : Fin 100000) (j : Fin 128), y = ix2 i j := ⟨y 0, y 1, eq_ix2 y⟩
  rw [val_main_v62_apply, val_main_v59_apply, val_main_v56_apply, val_main_v50_apply, val_main_v58_apply, val_main_v57_apply,
    idx5758, val_main_v61_apply, val_main_v60_apply, idx6061, Ideal.addf_def, Ideal.mulf_def, Ideal.hostDivf_def,
    Ideal.subf_def, rel_eq, meanB'_eq, sd_eq]
  rfl

end Cert.Sage.Ref
end
-- ==== Proof.lean ====
/-
  A GraphSAGE layer with batch normalisation: a tiled two-kernel program against its plain reference, over the
  extended reals.

  Both programs first aggregate, by the same gather and scatter-adds, the neighbour features agg and the in-degrees
  deg of 100000 nodes over 1600000 edges. The layer is lin = (agg / max deg 1) Wl + bl + x Wr; each row is divided by
  max (its Euclidean norm) 1e-12 and rectified; and each of the 128 columns is normalised over the 100000 rows, scaled by
  gamma and shifted by beta.

  The kernel program computes the rectified rows in 25 tiles of 4000 rows, together with each tile's column sums of the
  rows and of their squares; the host adds the tiles, takes mean = sum / n and var = max (sumsq / n - mean^2) 0; a second
  kernel, in 20 tiles of 5000 rows, forms (r - mean) * (1 / sqrt (var + 1e-5)) * gamma + beta. The reference takes
  mean = sum / n, var = sum (r - mean)^2 / n and (r - mean) / sqrt (var + 1e-5) * gamma + beta.

  Over the extended reals the two agree for ANY inputs: a rectified, row-normalised entry is always a real number (the
  row's norm is either infinite, and the quotient is then zero, or finite, and then every entry of the row is finite),
  so the column statistics are real, where E[r^2] - mean^2 = E[(r - mean)^2] >= 0 with n = 100000 exactly, and
  multiplying by 1 / s is dividing by s for the nonzero real s = sqrt (var + 1e-5). Changes of float format are the
  identity there, and matrix-unit products and tiled sums are plain finite sums.

  The three frames are the programs' generated runs; the idealization rewrote no operation.
-/
import proofs.«165918_j24438363914372_2_alg».proof.Defs
import proofs.«165918_j24438363914372_2_alg».proof.Proof.Gen.Kernel
import proofs.«165918_j24438363914372_2_alg».proof.Proof.Gen.Kernel.Skeleton
import proofs.«165918_j24438363914372_2_alg».proof.Proof.Gen.Kernel.Launch
import proofs.«165918_j24438363914372_2_alg».proof.Proof.Gen.Kernel.Points
import proofs.«165918_j24438363914372_2_alg».proof.Proof.Gen.Kernel.Frame
import proofs.«165918_j24438363914372_2_alg».proof.Proof.Gen.KernelIdeal
import proofs.«165918_j24438363914372_2_alg».proof.Proof.Gen.KernelIdeal.Skeleton
import proofs.«165918_j24438363914372_2_alg».proof.Proof.Gen.KernelIdeal.Launch
import proofs.«165918_j24438363914372_2_alg».proof.Proof.Gen.KernelIdeal.Points
import proofs.«165918_j24438363914372_2_alg».proof.Proof.Gen.KernelIdeal.Frame
import proofs.«165918_j24438363914372_2_alg».proof.Proof.Gen.ReferenceIdeal
import proofs.«165918_j24438363914372_2_alg».proof.Proof.Gen.Pre_finite_inputs
import proofs.«165918_j24438363914372_2_alg».proof.Proof.Gen.ReferenceIdeal.Run
import proofs.«165918_j24438363914372_2_alg».proof.Proof.Gen.ReferenceIdeal.Read
import proofs.«165918_j24438363914372_2_alg».proof.Proof.SageKernel
import proofs.«165918_j24438363914372_2_alg».proof.Proof.SageReference
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the result array at the two-pass
    normalisation G of the aggregated features, the in-degrees and the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.G
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Sage.Kernel.result_eq m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v62_eq, Cert.Sage.Ref.reference_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
